-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128x40 .f32) (main_arg6 : FVec F S40 .f32) (main_arg7 : FVec F S128x40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x40 .f32 := Host.absf main_arg5
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S128x40 .f32 := Host.absf main_arg7
  let main_cst_10 : FVec F S_ .f32 := constant S_ .f32 0x7F800000#32
  let main_v30 : FVec F S128x40 .f32 := broadcastInDim S128x40 ![] bcast_S_S128x40 main_cst_10
  let main_v31 : IVec S128x40 1 := cmpf .olt main_v29 main_v30
  let main_c_11 : IVec S_ 1 := constantI S_ 1 1#1
  let main_v32 : IVec S_ 1 := (fun x v => Host.reduce IntOp.andi x v reducesTo_S128x40_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x40 .f32) (main_arg6 : FVec F S40 .f32) (main_arg7 : FVec F S128x40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S5000x128 : Shape := ⟨2, ![5000, 128]⟩
abbrev S5000x1 : Shape := ⟨2, ![5000, 1]⟩
abbrev S1x128 : Shape := ⟨2, ![1, 128]⟩
abbrev S100000x40 : Shape := ⟨2, ![100000, 40]⟩
abbrev S5000x40 : Shape := ⟨2, ![5000, 40]⟩
abbrev S1x40 : Shape := ⟨2, ![1, 40]⟩
abbrev S5000 : Shape := ⟨1, ![5000]⟩

abbrev nBuf : Space → Nat
  | .hbm => 60
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x40, .f32⟩
  | .hbm, ⟨6, _⟩ => ⟨S40, .f32⟩
  | .hbm, ⟨7, _⟩ => ⟨S128x40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x128, .bf16⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .bf16⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S128x128, .bf16⟩
  | .hbm, ⟨41, _⟩ => ⟨S128x128, .bf16⟩
  | .hbm, ⟨42, _⟩ => ⟨S100000x128, .bf16⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .bf16⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S128x40, .bf16⟩
  | .hbm, ⟨58, _⟩ => ⟨S128x40, .bf16⟩
  | .hbm, ⟨59, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .bf16⟩
  | .local _ .vmem, ⟨3, _⟩ => ⟨S5000x128, .bf16⟩
  | .local _ .vmem, ⟨4, _⟩ => ⟨S5000x1, .f32⟩
  | .local _ .vmem, ⟨5, _⟩ => ⟨S5000x1, .f32⟩
  | .local _ .vmem, ⟨6, _⟩ => ⟨S128x128, .bf16⟩
  | .local _ .vmem, ⟨7, _⟩ => ⟨S128, .f32⟩
  | .local _ .vmem, ⟨8, _⟩ => ⟨S128x128, .bf16⟩
  | .local _ .vmem, ⟨9, _⟩ => ⟨S5000x128, .bf16⟩
  | .local _ .vmem, ⟨10, _⟩ => ⟨S5000x128, .bf16⟩
  | .local _ .vmem, ⟨11, _⟩ => ⟨S5000x128, .f32⟩
  | .local _ .vmem, ⟨12, _⟩ => ⟨S5000x128, .f32⟩
  | .local _ .vmem, ⟨13, _⟩ => ⟨S5000x128, .bf16⟩
  | .local _ .vmem, ⟨14, _⟩ => ⟨S5000x128, .bf16⟩
  | .local _ .vmem, ⟨15, _⟩ => ⟨S5000x1, .f32⟩
  | .local _ .vmem, ⟨16, _⟩ => ⟨S5000x1, .f32⟩
  | .local _ .vmem, ⟨17, _⟩ => ⟨S128x40, .bf16⟩
  | .local _ .vmem, ⟨18, _⟩ => ⟨S40, .f32⟩
  | .local _ .vmem, ⟨19, _⟩ => ⟨S128x40, .bf16⟩
  | .local _ .vmem, ⟨20, _⟩ => ⟨S5000x40, .f32⟩
  | .local _ .vmem, ⟨21, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x40 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x40 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x40 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  bcast_S_S100000x128 : S_.BroadcastsInDim S100000x128 (![] : Fin 0 → Fin S100000x128.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .bf16 = 32 ∨ (Rect.block (s := S100000x128) S5000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .bf16 = 32 ∨ (Rect.block (s := S100000x128) S5000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .bf16 = 32 ∨ (Rect.block (s := S100000x128) S5000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x40.size a ≤ S128x40.size a
  hwx1_3 : ∀ i : grid1.Coords, EltTy.bits .bf16 = 32 ∨ (Rect.block (s := S128x40) S128x40.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S40.size a ≤ S40.size a
  hwx1_4 : ∀ i : grid1.Coords, EltTy.bits .f32 = 32 ∨ (Rect.block (s := S40) S40.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x40.size a ≤ S128x40.size a
  hwx1_5 : ∀ i : grid1.Coords, EltTy.bits .bf16 = 32 ∨ (Rect.block (s := S128x40) S128x40.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x40.size a ≤ S100000x40.size a
  hwx1_6 : ∀ i : grid1.Coords, EltTy.bits .f32 = 32 ∨ (Rect.block (s := S100000x40) S5000x40.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39) S128x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S128x40.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S5000x40.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x40 : Shape := ⟨2, ![100000, 40]⟩
abbrev S1x40 : Shape := ⟨2, ![1, 40]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x40, .f32⟩
  | .hbm, ⟨6, _⟩ => ⟨S40, .f32⟩
  | .hbm, ⟨7, _⟩ => ⟨S128x40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x40, .f32⟩
  | .hbm, ⟨72, _⟩ => ⟨S1x40, .f32⟩
  | .hbm, ⟨73, _⟩ => ⟨S100000x40, .f32⟩
  | .hbm, ⟨74, _⟩ => ⟨S100000x40, .f32⟩
  | .hbm, ⟨75, _⟩ => ⟨S100000x40, .f32⟩
  | .hbm, ⟨76, _⟩ => ⟨S100000x40, .f32⟩
  | .hbm, ⟨77, _⟩ => ⟨S_, .f32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S100000x1, .f32⟩
  | .hbm, ⟨83, _⟩ => ⟨S100000x40, .f32⟩
  | .hbm, ⟨84, _⟩ => ⟨S100000x40, .f32⟩
  | .hbm, ⟨85, _⟩ => ⟨S100000x40, .f32⟩
  | .hbm, ⟨86, _⟩ => ⟨S_, .f32⟩
  | .hbm, ⟨87, _⟩ => ⟨S100000, .f32⟩
  | .hbm, ⟨88, _⟩ => ⟨S100000x1, .f32⟩
  | .hbm, ⟨89, _⟩ => ⟨S100000x1, .f32⟩
  | .hbm, ⟨90, _⟩ => ⟨S100000x40, .f32⟩
  | .hbm, ⟨91, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_call1_cst_0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_cst_1 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_v55 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KRun.lean ====
/-
  The idealized kernel program's run with its result kept.

  The program is two kernel regions among host operations.  Every weakly fair execution terminates without a
  fault; at the end the result buffer holds what the second region's write-backs leave in it, and the eight
  argument arrays are as launched.  The contents of every buffer at each boundary between a stretch of host
  operations and a region are a fold from the launch memory; the result is read off the last boundary.
-/
import proofs.«165936_j38628935860964_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents
    and the arguments end as launched. -/
theorem run : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Named

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.Spec.lean ====
/-
  Two-layer mean-aggregation graph network, one output row at a time, on the extended reals.

  A node's row of the hidden layer is  max(agg · Wl + b + x · Wr, 0)  where agg is the node's aggregated
  neighbour row; a node's row of logits is  agg · Wl + b + h · Wr ; the output row is the row of logits minus
  its maximum minus the logarithm of the sum of the exponentials of those differences.  The aggregated row is a
  sum over incoming edges divided by the clamped in-degree; one program multiplies by the reciprocal of the
  clamped degree, the other divides by it, and these agree because a degree clamped below by one is not zero.
-/
import Idealize.ShloMosaic.PureOps.Ideal.Laws
import Idealize.ShloMosaic.Lib.ValueIdx

noncomputable section

namespace Cert.Sage

open Idealize.ShloMosaic

/-- The single-precision word of one denotes the extended real 1. -/
theorem one_word : Ideal.ofBits .f32 0x3F800000#32 = 1 := by
  simp [Ideal.ofBits, Ideal.ieee, -EReal.coe_mul]; norm_num

/-- A quantity clamped below by one is not zero, whatever it is (infinite included). -/
theorem clamp_ne_zero (a : EReal) : max a (Ideal.ofBits .f32 0x3F800000#32) ≠ 0 := by
  rw [one_word]
  exact ne_of_gt (lt_of_lt_of_le zero_lt_one (le_max_right a 1))

/-- Multiplying by the reciprocal 1/d of a nonzero d is dividing by d: both are x · d⁻¹, on every extended real x. -/
theorem mul_recip (x d : EReal) (hd : d ≠ 0) :
    x * Ideal.div (Ideal.ofBits .f32 0x3F800000#32) d = Ideal.div x d := by
  rw [one_word]
  unfold Ideal.div
  rw [if_neg hd, if_neg hd, one_mul]

/-- The mean row both programs feed to the left weights: a summed row times the reciprocal of the clamped degree
    is the summed row divided by the clamped degree. -/
theorem mean_eq (s deg : EReal) :
    s * Ideal.div (Ideal.ofBits .f32 0x3F800000#32) (max deg (Ideal.ofBits .f32 0x3F800000#32))
      = Ideal.div s (max deg (Ideal.ofBits .f32 0x3F800000#32)) :=
  mul_recip s _ (clamp_ne_zero deg)

/-- Entry c of a node's hidden row: the rectified sum of the aggregated row through the left weights, the bias,
    and the node's own row through the right weights. -/
def hiddenAt (agg x : Fin 128 → EReal) (Wl Wr : Fin 128 → Fin 128 → EReal) (b : Fin 128 → EReal) (c : Fin 128) : EReal :=
  max (((∑ k : Fin 128, agg k * Wl k c) + b c) + ∑ k : Fin 128, x k * Wr k c) (Ideal.ofBits .f32 0x00000000#32)

/-- Entry c of a node's row of logits. -/
def logitAt (agg h : Fin 128 → EReal) (Wl Wr : Fin 128 → Fin 40 → EReal) (b : Fin 40 → EReal) (c : Fin 40) : EReal :=
  ((∑ k : Fin 128, agg k * Wl k c) + b c) + ∑ k : Fin 128, h k * Wr k c

/-- The maximum of a row of logits, folded from minus infinity. -/
def rowMax (z : Fin 40 → EReal) : EReal :=
  (Finset.univ : Finset (Fin 40)).fold max (Ideal.ofBits .f32 0xFF800000#32) z

/-- Entry c of the log-softmax of a row of logits. -/
def logSoftmaxAt (z : Fin 40 → EReal) (c : Fin 40) : EReal :=
  (z c - rowMax z) - Ideal.log (∑ k : Fin 40, Ideal.exp (z k - rowMax z))

end Cert.Sage

end
-- ==== Proof.BodyRows.lean ====
/-
  The two kernel bodies, read one output entry at a time on the extended reals.

  The first body's stored value at row p, column q is the hidden-layer entry of that row: the row of summed
  messages times the row's reciprocal degree goes through the left weights, the bias is added, the row's own
  features go through the right weights, and the result is rectified.  The second body's is the log-softmax of the
  row of logits built the same way.  Both depend only on row p of the row-blocked operands.
-/
import proofs.«165936_j38628935860964_2_alg».proof.Proof.Gen.KernelIdeal.Skeleton
import proofs.«165936_j38628935860964_2_alg».proof.Proof.LibRowOps
import proofs.«165936_j38628935860964_2_alg».proof.Proof.Spec
import Idealize.ShloMosaic.Lib.ValueLayout

noncomputable section

namespace Cert.KernelIdeal.Body

open Cert.KernelIdeal Cert.KernelIdeal.Gen Idealize.ShloMosaic Idealize.ShloMosaic.ValueIdx Cert.Sage Cert.RowOps

theorem plain128 : IsPlain dot_S5000x128_S128x128_S5000x128_1_0_0_1_n_n := ⟨rfl, rfl, rfl, rfl, rfl, rfl⟩
theorem plain40 : IsPlain dot_S5000x128_S128x40_S5000x40_1_0_0_1_n_n := ⟨rfl, rfl, rfl, rfl, rfl, rfl⟩

/-- A length-b vector viewed as one row and repeated down a rows reads, at (p, c), the vector at c. -/
theorem bias128 (v : Vec Ideal S128 .f32) (p : Fin 5000) (c : Fin 128) :
    broadcastTo S5000x128 (shapeCast S1x128 v shapeCasts_S128_S1x128) broadcasts_S1x128_S5000x128 (ix2 p c) = v (ix1 c) :=
  (broadcastTo_1b_ab_apply _ _ p c).trans (shapeCast_a_1a_apply v _ 0 c)

theorem bias40 (v : Vec Ideal S40 .f32) (p : Fin 5000) (c : Fin 40) :
    broadcastTo S5000x40 (shapeCast S1x40 v shapeCasts_S40_S1x40) broadcasts_S1x40_S5000x40 (ix2 p c) = v (ix1 c) :=
  (broadcastTo_1b_ab_apply _ _ p c).trans (shapeCast_a_1a_apply v _ 0 c)

/-- The mean row as the bodies form it: the summed row times the row's reciprocal degree. -/
theorem mean_apply (v0 : Vec Ideal S5000x1 .f32) (v2 : Vec Ideal S5000x128 .f32) (p : Fin 5000) (k : Fin 128) :
    (truncf .bf16 (mulf (shapeCast S5000x128 v2 shapeCasts_S5000x128_S5000x128)
        (broadcastTo S5000x128 (shapeCast S5000x1 v0 shapeCasts_S5000x1_S5000x1) broadcasts_S5000x1_S5000x128)) bitsLt_bf16_f32
      : FVec Ideal S5000x128 .bf16) (ix2 p k) = v2 (ix2 p k) * v0 (ix2 p (0 : Fin 1)) := by
  rw [truncf_apply, mulf_apply, shapeCast_self, shapeCast_self]
  exact congrArg (v2 (ix2 p k) * ·) (spread_apply v0 _ p k)

/-- The first body's stored value at (p, q). -/
theorem hidden_pay (v0 : Vec Ideal S5000x1 .f32) (v2 : Vec Ideal S5000x128 .f32) (v7 : Vec Ideal S5000x128 .bf16)
    (v9 v11 : Vec Ideal S128x128 .bf16) (v14 : Vec Ideal S128 .f32) (p : Fin 5000) (q : Fin 128) :
    k0_pay1 (F := Ideal) v0 v2 v7 v9 v11 v14 (ix2 p q)
      = hiddenAt (fun k => v2 (ix2 p k) * v0 (ix2 p (0 : Fin 1))) (fun k => v7 (ix2 p k))
          (fun k c => v9 (ix2 k c)) (fun k c => v11 (ix2 k c)) (fun c => v14 (ix1 c)) q := by
  unfold k0_pay1 hiddenAt
  dsimp only
  rw [truncf_apply, maximumf_apply, addf_apply, addf_apply, bias128, broadcast_apply]
  refine congrArg₂ max (congrArg₂ (· + ·) (congrArg₂ (· + ·) ?_ rfl) ?_) rfl
  · exact (matmul_zero_apply plain128 none _ _ p q).trans
      (Finset.sum_congr rfl fun k _ => by rw [mean_apply, shapeCast_self])
  · exact (matmul_zero_apply plain128 none _ _ p q).trans
      (Finset.sum_congr rfl fun k _ => by rw [shapeCast_self, shapeCast_self])

/-! ## The second body -/

section Spelling

variable {F : FTy → Type} [FloatOps F]

/-- The rows of logits as the second body forms them from its six loads. -/
def logitsVec (v0 : Vec F S5000x1 .f32) (v2 : Vec F S5000x128 .f32) (v7 : Vec F S5000x128 .bf16)
    (v9 v11 : Vec F S128x40 .bf16) (v14 : Vec F S40 .f32) : FVec F S5000x40 .f32 :=
  addf (addf (matmul dot_S5000x128_S128x40_S5000x40_1_0_0_1_n_n none
      (truncf .bf16 (mulf (shapeCast S5000x128 v2 shapeCasts_S5000x128_S5000x128)
        (broadcastTo S5000x128 (shapeCast S5000x1 v0 shapeCasts_S5000x1_S5000x1) broadcasts_S5000x1_S5000x128)) bitsLt_bf16_f32)
      (shapeCast S128x40 v9 shapeCasts_S128x40_S128x40) (constant S5000x40 .f32 0x00000000#32))
    (broadcastTo S5000x40 (shapeCast S1x40 v14 shapeCasts_S40_S1x40) broadcasts_S1x40_S5000x40))
    (matmul dot_S5000x128_S128x40_S5000x40_1_0_0_1_n_n none (shapeCast S5000x128 v7 shapeCasts_S5000x128_S5000x128)
      (shapeCast S128x40 v11 shapeCasts_S128x40_S128x40) (constant S5000x40 .f32 0x00000000#32))

/-- Each row's maximum, repeated along the row. -/
def rowMaxVec (z : FVec F S5000x40 .f32) : FVec F S5000x40 .f32 :=
  broadcastTo S5000x40 (shapeCast S5000x1 (multiReduction .maximumf [1] S5000 z 0xFF800000#32 reduces_S5000x40_S5000 (.inl rfl) rfl)
    shapeCasts_S5000_S5000x1) broadcasts_S5000x1_S5000x40

/-- The row-wise log-softmax as the second body spells it. -/
def lsmVec (z : FVec F S5000x40 .f32) : FVec F S5000x40 .f32 :=
  subf (subf z (rowMaxVec z))
    (broadcastTo S5000x40 (log (shapeCast S5000x1 (multiReduction .add [1] S5000 (exp (subf z (rowMaxVec z))) 0x00000000#32
      reduces_S5000x40_S5000 (.inl rfl) rfl) shapeCasts_S5000_S5000x1)) broadcasts_S5000x1_S5000x40)

/-- The second body's stored value is the log-softmax of its rows of logits. -/
theorem out_pay_eq (v0 : Vec F S5000x1 .f32) (v2 : Vec F S5000x128 .f32) (v7 : Vec F S5000x128 .bf16)
    (v9 v11 : Vec F S128x40 .bf16) (v14 : Vec F S40 .f32) :
    k1_pay1 v0 v2 v7 v9 v11 v14 = lsmVec (logitsVec v0 v2 v7 v9 v11 v14) := rfl

end Spelling

/-- A logit at (p, q). -/
theorem logits_apply (v0 : Vec Ideal S5000x1 .f32) (v2 : Vec Ideal S5000x128 .f32) (v7 : Vec Ideal S5000x128 .bf16)
    (v9 v11 : Vec Ideal S128x40 .bf16) (v14 : Vec Ideal S40 .f32) (p : Fin 5000) (q : Fin 40) :
    logitsVec (F := Ideal) v0 v2 v7 v9 v11 v14 (ix2 p q)
      = logitAt (fun k => v2 (ix2 p k) * v0 (ix2 p (0 : Fin 1))) (fun k => v7 (ix2 p k))
          (fun k c => v9 (ix2 k c)) (fun k c => v11 (ix2 k c)) (fun c => v14 (ix1 c)) q := by
  unfold logitsVec logitAt
  rw [addf_apply, addf_apply, bias40]
  refine congrArg₂ (· + ·) (congrArg₂ (· + ·) ?_ rfl) ?_
  · exact (matmul_zero_apply plain40 none _ _ p q).trans
      (Finset.sum_congr rfl fun k _ => by rw [mean_apply, shapeCast_self])
  · exact (matmul_zero_apply plain40 none _ _ p q).trans
      (Finset.sum_congr rfl fun k _ => by rw [shapeCast_self, shapeCast_self])

/-- The repeated row maximum at (p, q) is the fold of max over row p. -/
theorem rowMaxVec_apply (z : FVec Ideal S5000x40 .f32) (p : Fin 5000) (q : Fin 40) :
    rowMaxVec (F := Ideal) z (ix2 p q) = rowMax (fun k => z (ix2 p k)) :=
  (spread_apply _ _ p q).trans ((column_apply _ _ p 0).trans (rowMax_apply z _ _ _ _ p))

/-- The row-wise log-softmax at (p, q). -/
theorem lsm_apply (z : FVec Ideal S5000x40 .f32) (p : Fin 5000) (q : Fin 40) :
    lsmVec (F := Ideal) z (ix2 p q) = logSoftmaxAt (fun k => z (ix2 p k)) q := by
  unfold lsmVec logSoftmaxAt
  rw [subf_apply, subf_apply, rowMaxVec_apply]
  refine congrArg (z (ix2 p q) - rowMax (fun k => z (ix2 p k)) - ·) ?_
  refine (spread_apply _ _ p q).trans ?_
  refine congrArg Ideal.log ?_
  refine (column_apply _ _ p 0).trans ((rowSum_apply _ _ _ _ _ p).trans (Finset.sum_congr rfl fun k _ => ?_))
  show Ideal.exp (z (ix2 p k) - rowMaxVec (F := Ideal) z (ix2 p k)) = _
  rw [rowMaxVec_apply]

/-- The second body's stored value at (p, q). -/
theorem out_pay (v0 : Vec Ideal S5000x1 .f32) (v2 : Vec Ideal S5000x128 .f32) (v7 : Vec Ideal S5000x128 .bf16)
    (v9 v11 : Vec Ideal S128x40 .bf16) (v14 : Vec Ideal S40 .f32) (p : Fin 5000) (q : Fin 40) :
    k1_pay1 (F := Ideal) v0 v2 v7 v9 v11 v14 (ix2 p q)
      = logSoftmaxAt (logitAt (fun k => v2 (ix2 p k) * v0 (ix2 p (0 : Fin 1))) (fun k => v7 (ix2 p k))
          (fun k c => v9 (ix2 k c)) (fun k c => v11 (ix2 k c)) (fun c => v14 (ix1 c))) q := by
  rw [out_pay_eq, lsm_apply]
  exact congrArg (logSoftmaxAt · q) (funext fun k => logits_apply v0 v2 v7 v9 v11 v14 p k)

end Cert.KernelIdeal.Body

end
-- ==== Proof.Region0.lean ====
/-
  The first kernel region as one function of the arrays it reads.

  The region's grid has twenty points; point t handles rows 5000·t … 5000·t + 4999.  The row-blocked operands
  (summed messages, node features, reciprocal degrees) are read through the block at t, the two weight matrices and
  the bias whole.  Every output entry depends only on its own row, so what point t writes back is block t of one
  array-level function, and the twenty blocks tile the output: the output array ends holding that function.
-/
import proofs.«165936_j38628935860964_2_alg».proof.Proof.Gen.KernelIdeal.Frame
import proofs.«165936_j38628935860964_2_alg».proof.Proof.BodyRows
import Idealize.ShloMosaic.Lib.Pipeline.Value

noncomputable section

namespace Cert.KernelIdeal.Region0

open Cert.KernelIdeal Cert.KernelIdeal.Gen Idealize.ShloMosaic Idealize.ShloMosaic.TcCoe Idealize.ShloMosaic.ValueIdx
open Idealize.SL.Sem Cert.Sage
open Idealize.ShloMosaic.Pipeline (Dat)

/-- The hidden layer over all nodes: entry (r, c) is the hidden entry of row r built from row r of the summed
    messages scaled by that row's reciprocal degree, row r of the features, the weights and the bias. -/
def hiddenArr (S : FVec Ideal S100000x128 .f32) (x : FVec Ideal S100000x128 .bf16) (inv : FVec Ideal S100000x1 .f32)
    (Wl : FVec Ideal S128x128 .bf16) (b : FVec Ideal S128 .f32) (Wr : FVec Ideal S128x128 .bf16) :
    FVec Ideal S100000x128 .bf16 := fun j =>
  hiddenAt (fun k => S (ix2 (j 0) k) * inv (ix2 (j 0) (0 : Fin 1))) (fun k => x (ix2 (j 0) k))
    (fun k c => Wl (ix2 k c)) (fun k c => Wr (ix2 k c)) (fun c => b (ix1 c)) (j 1)

theorem hiddenArr_apply (S : FVec Ideal S100000x128 .f32) (x : FVec Ideal S100000x128 .bf16) (inv : FVec Ideal S100000x1 .f32)
    (Wl : FVec Ideal S128x128 .bf16) (b : FVec Ideal S128 .f32) (Wr : FVec Ideal S128x128 .bf16) (r : Fin 100000) (q : Fin 128) :
    hiddenArr S x inv Wl b Wr (ix2 r q)
      = hiddenAt (fun k => S (ix2 r k) * inv (ix2 r (0 : Fin 1))) (fun k => x (ix2 r k))
          (fun k c => Wl (ix2 k c)) (fun k c => Wr (ix2 k c)) (fun c => b (ix1 c)) q := rfl

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row-blocked windows are at block (t, 0), the whole ones at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of point t's block of the summed messages is row 5000·t + p of the array. -/
theorem read0 (c : Dev nD) (t : Fin cfg0.N) (p : Fin 5000) (k : Fin 128) (r : Fin 100000) (hr : r.val = 5000 * t.val + p.val) :
    (iblk0 V c 0 t : Vec Ideal S5000x128 .f32) (ix2 p k) = (V c main_v24 : FVec Ideal S100000x128 .f32) (ix2 r k) := by
  obtain ⟨e0, e1, -⟩ := idx_facts t
  unfold iblk0
  rw [View.read_apply]
  show V c main_v24 (((cfg0.win 0).blk t).view.emb (ix2 p k)) = V c main_v24 (ix2 r k)
  refine congrArg (V c main_v24) (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Row p of point t's block of the node features is row 5000·t + p of the array. -/
theorem read1 (c : Dev nD) (t : Fin cfg0.N) (p : Fin 5000) (k : Fin 128) (r : Fin 100000) (hr : r.val = 5000 * t.val + p.val) :
    (iblk0 V c 1 t : Vec Ideal S5000x128 .bf16) (ix2 p k) = (V c main_v13 : FVec Ideal S100000x128 .bf16) (ix2 r k) := by
  obtain ⟨-, -, e0, e1, -⟩ := idx_facts t
  unfold iblk0
  rw [View.read_apply]
  show V c main_v13 (((cfg0.win 1).blk t).view.emb (ix2 p k)) = V c main_v13 (ix2 r k)
  refine congrArg (V c main_v13) (funext fun a => Fin.ext ?_)
  match a with
  | ⟨0, _⟩ => show win0_1.index t (0 : Fin 2) * 5000 + 1 * p.val = r.val; rw [e0, hr]; omega
  | ⟨1, _⟩ => show win0_1.index t (1 : Fin 2) * 128 + 1 * k.val = k.val; rw [e1]; omega

/-- Entry p of point t's block of the reciprocal degrees is entry 5000·t + p of the column. -/
theorem read2 (c : Dev nD) (t : Fin cfg0.N) (p : Fin 5000) (r : Fin 100000) (hr : r.val = 5000 * t.val + p.val) :
    (iblk0 V c 2 t : Vec Ideal S5000x1 .f32) (ix2 p (0 : Fin 1)) = (V c main_v12 : FVec Ideal S100000x1 .f32) (ix2 r (0 : Fin 1)) := by
  obtain ⟨-, -, -, -, e0, e1, -⟩ := idx_facts t
  unfold iblk0
  rw [View.read_apply]
  show V c main_v12 (((cfg0.win 2).blk t).view.emb (ix2 p (0 : Fin 1))) = V c main_v12 (ix2 r (0 : Fin 1))
  refine congrArg (V c main_v12) (funext fun a => Fin.ext ?_)
  match a with
  | ⟨0, _⟩ => show win0_2.index t (0 : Fin 2) * 5000 + 1 * p.val = r.val; rw [e0, hr]; omega
  | ⟨1, _⟩ => show win0_2.index t (1 : Fin 2) * 1 + 1 * 0 = 0; rw [e1]

/-- The left weights are read whole at every point. -/
theorem read3 (c : Dev nD) (t : Fin cfg0.N) (k c' : Fin 128) :
    (iblk0 V c 3 t : Vec Ideal S128x128 .bf16) (ix2 k c') = (V c main_v25 : FVec Ideal S128x128 .bf16) (ix2 k c') := by
  obtain ⟨-, -, -, -, -, -, e0, e1, -⟩ := idx_facts t
  unfold iblk0
  rw [View.read_apply]
  show V c main_v25 (((cfg0.win 3).blk t).view.emb (ix2 k c')) = V c main_v25 (ix2 k c')
  refine congrArg (V c main_v25) (funext fun a => Fin.ext ?_)
  match a with
  | ⟨0, _⟩ => show win0_3.index t (0 : Fin 2) * 128 + 1 * k.val = k.val; rw [e0]; omega
  | ⟨1, _⟩ => show win0_3.index t (1 : Fin 2) * 128 + 1 * c'.val = c'.val; rw [e1]; omega

/-- The bias is read whole at every point. -/
theorem read4 (c : Dev nD) (t : Fin cfg0.N) (c' : Fin 128) :
    (iblk0 V c 4 t : Vec Ideal S128 .f32) (ix1 c') = (V c main_arg3 : FVec Ideal S128 .f32) (ix1 c') := by
  obtain ⟨-, -, -, -, -, -, -, -, e0, -⟩ := idx_facts t
  unfold iblk0
  rw [View.read_apply]
  show V c main_arg3 (((cfg0.win 4).blk t).view.emb (ix1 c')) = V c main_arg3 (ix1 c')
  refine congrArg (V c main_arg3) (funext fun a => Fin.ext ?_)
  match a with
  | ⟨0, _⟩ => show win0_4.index t (0 : Fin 1) * 128 + 1 * c'.val = c'.val; rw [e0]; omega

/-- The right weights are read whole at every point. -/
theorem read5 (c : Dev nD) (t : Fin cfg0.N) (k c' : Fin 128) :
    (iblk0 V c 5 t : Vec Ideal S128x128 .bf16) (ix2 k c') = (V c main_v26 : FVec Ideal S128x128 .bf16) (ix2 k c') := by
  obtain ⟨-, -, -, -, -, -, -, -, -, e0, e1, -⟩ := idx_facts t
  unfold iblk0
  rw [View.read_apply]
  show V c main_v26 (((cfg0.win 5).blk t).view.emb (ix2 k c')) = V c main_v26 (ix2 k c')
  refine congrArg (V c main_v26) (funext fun a => Fin.ext ?_)
  match a with
  | ⟨0, _⟩ => show win0_5.index t (0 : Fin 2) * 128 + 1 * k.val = k.val; rw [e0]; omega
  | ⟨1, _⟩ => show win0_5.index t (1 : Fin 2) * 128 + 1 * c'.val = c'.val; rw [e1]; omega

/-- The hidden layer of the arrays as region 0 finds them. -/
abbrev result (c : Dev nD) : FVec Ideal S100000x128 .bf16 :=
  hiddenArr (V c main_v24) (V c main_v13) (V c main_v12) (V c main_v25) (V c main_arg3) (V c main_v26)

/-- What point t writes back is block t of the hidden layer. -/
theorem flushed_eq (c : Dev nD) (t : Fin cfg0.N) :
    (dat0 V c).flushed 6 t = ((cfg0.win 6).blk t).view.read (Elt Ideal) (result V c) := by
  show (cfg0.win 6).cut (grid0.coords t) ((dat0 V c).after 6 t) = _
  rw [after0_6]
  unfold out0_6
  rw [View.canon_unit_zero hz2]
  simp only [View.ld_unit_zero (S := S5000x1) hz2, View.ld_unit_zero (S := S5000x128) hz2,
    View.ld_unit_zero (S := S128x128) hz2, View.ld_unit_zero (S := S128) hz1]
  funext y
  obtain ⟨p, q, rfl⟩ : ∃ (p : Fin 5000) (q : Fin 128), y = ix2 p q := ⟨y 0, y 1, eq_ix2 y⟩
  have hN : cfg0.N = 20 := N_0
  have hr : 5000 * t.val + p.val < 100000 := by have := t.isLt; omega
  obtain ⟨-, -, -, -, -, -, -, -, -, -, -, e0, e1⟩ := idx_facts t
  refine (Body.hidden_pay (iblk0 V c 2 t) (iblk0 V c 0 t) (iblk0 V c 1 t) (iblk0 V c 3 t) (iblk0 V c 5 t) (iblk0 V c 4 t) p q).trans ?_
  rw [View.read_apply]
  have he : ((cfg0.win 6).blk t).view.emb (ix2 p q) = ix2 (⟨5000 * t.val + p.val, hr⟩ : Fin 100000) q :=
    funext fun a => Fin.ext (by
      match a with
      | ⟨0, _⟩ => show win0_6.index t (0 : Fin 2) * 5000 + 1 * p.val = 5000 * t.val + p.val; rw [e0]; omega
      | ⟨1, _⟩ => show win0_6.index t (1 : Fin 2) * 128 + 1 * q.val = q.val; rw [e1]; omega)
  rw [he]
  show _ = hiddenArr _ _ _ _ _ _ (ix2 (⟨5000 * t.val + p.val, hr⟩ : Fin 100000) q)
  rw [hiddenArr_apply]
  simp only [read0 V c t p _ ⟨5000 * t.val + p.val, hr⟩ rfl, read1 V c t p _ ⟨5000 * t.val + p.val, hr⟩ rfl,
    read2 V c t p ⟨5000 * t.val + p.val, hr⟩ rfl, read3 V c t, read4 V c t, read5 V c t]

/-- An index of the output array is in point t's block iff its coordinates are in the block's ranges. -/
theorem mem_blk (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v27).slice (win0_6.rect t)).set ↔ _
  rw [View.set_slice_whole, Rect.mem_set_unit]
  exact Iff.rfl

/-- The twenty blocks tile the output array: row r is in the block of point r / 5000. -/
theorem cover (i : S100000x128.Idx) : ∃ t : Fin cfg0.N, (cfg0.win 6).flush t = true ∧ i ∈ ((cfg0.win 6).blk t).view.set := by
  have h0 : (i 0).val < 100000 := (i 0).isLt
  have h1 : (i 1).val < 128 := (i 1).isLt
  have hN : cfg0.N = 20 := N_0
  have ht : (i 0).val / 5000 < cfg0.N := by rw [hN]; omega
  obtain ⟨-, -, -, -, -, -, -, -, -, -, -, e0, e1⟩ := idx_facts ⟨(i 0).val / 5000, ht⟩
  refine ⟨⟨(i 0).val / 5000, ht⟩, flush0_6 _, ?_⟩
  rw [mem_blk]
  intro a
  match a with
  | ⟨0, _⟩ =>
    show win0_6.index ⟨(i 0).val / 5000, ht⟩ (0 : Fin 2) * 5000 ≤ (i 0).val
      ∧ (i 0).val < win0_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, ht⟩ (1 : Fin 2) * 128 ≤ (i 1).val
      ∧ (i 1).val < win0_6.index ⟨(i 0).val / 5000, ht⟩ (1 : Fin 2) * 128 + 128
    rw [e1]; omega

/-- The output array after the region is the hidden layer of the arrays as the region found them. -/
theorem final (c : Dev nD) : (dat0 V c).arrAt 6 cfg0.N = result V c :=
  (dat0 V c).arrAt_eq_of_cover 6 (result V c) (fun t _ => flushed_eq V c t) cover

end Cert.KernelIdeal.Region0

end
-- ==== Proof.Region1.lean ====
/-
  The second kernel region as one function of the arrays it reads.

  As in the first region the grid has twenty points and point t handles rows 5000·t … 5000·t + 4999; the summed
  hidden messages, the hidden layer and the reciprocal degrees are read through the block at t, the two weight
  matrices and the bias whole.  An output entry is the log-softmax of its own row of logits, so the twenty written
  blocks are the blocks of one array-level function and tile the output.
-/
import proofs.«165936_j38628935860964_2_alg».proof.Proof.Gen.KernelIdeal.Frame
import proofs.«165936_j38628935860964_2_alg».proof.Proof.BodyRows
import Idealize.ShloMosaic.Lib.Pipeline.Value

noncomputable section

namespace Cert.KernelIdeal.Region1

open Cert.KernelIdeal Cert.KernelIdeal.Gen Idealize.ShloMosaic Idealize.ShloMosaic.TcCoe Idealize.ShloMosaic.ValueIdx
open Idealize.SL.Sem Cert.Sage
open Idealize.ShloMosaic.Pipeline (Dat)

/-- The output over all nodes: entry (r, c) is the log-softmax entry c of row r's logits, built from row r of the
    summed hidden messages scaled by that row's reciprocal degree, row r of the hidden layer, the weights and the bias. -/
def outArr (S : FVec Ideal S100000x128 .f32) (h : FVec Ideal S100000x128 .bf16) (inv : FVec Ideal S100000x1 .f32)
    (Wl : FVec Ideal S128x40 .bf16) (b : FVec Ideal S40 .f32) (Wr : FVec Ideal S128x40 .bf16) :
    FVec Ideal S100000x40 .f32 := fun j =>
  logSoftmaxAt (logitAt (fun k => S (ix2 (j 0) k) * inv (ix2 (j 0) (0 : Fin 1))) (fun k => h (ix2 (j 0) k))
    (fun k c => Wl (ix2 k c)) (fun k c => Wr (ix2 k c)) (fun c => b (ix1 c))) (j 1)

theorem outArr_apply (S : FVec Ideal S100000x128 .f32) (h : FVec Ideal S100000x128 .bf16) (inv : FVec Ideal S100000x1 .f32)
    (Wl : FVec Ideal S128x40 .bf16) (b : FVec Ideal S40 .f32) (Wr : FVec Ideal S128x40 .bf16) (r : Fin 100000) (q : Fin 40) :
    outArr S h inv Wl b Wr (ix2 r q)
      = logSoftmaxAt (logitAt (fun k => S (ix2 r k) * inv (ix2 r (0 : Fin 1))) (fun k => h (ix2 r k))
          (fun k c => Wl (ix2 k c)) (fun k c => Wr (ix2 k c)) (fun c => b (ix1 c))) q := rfl

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row-blocked windows are at block (t, 0), the whole ones at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of point t's block of the summed hidden messages is row 5000·t + p of the array. -/
theorem read0 (c : Dev nD) (t : Fin cfg1.N) (p : Fin 5000) (k : Fin 128) (r : Fin 100000) (hr : r.val = 5000 * t.val + p.val) :
    (iblk1 V c 0 t : Vec Ideal S5000x128 .f32) (ix2 p k) = (V c main_v38 : FVec Ideal S100000x128 .f32) (ix2 r k) := by
  obtain ⟨e0, e1, -⟩ := idx_facts t
  unfold iblk1
  rw [View.read_apply]
  show V c main_v38 (((cfg1.win 0).blk t).view.emb (ix2 p k)) = V c main_v38 (ix2 r k)
  refine congrArg (V c main_v38) (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- Row p of point t's block of the hidden layer is row 5000·t + p of the array. -/
theorem read1 (c : Dev nD) (t : Fin cfg1.N) (p : Fin 5000) (k : Fin 128) (r : Fin 100000) (hr : r.val = 5000 * t.val + p.val) :
    (iblk1 V c 1 t : Vec Ideal S5000x128 .bf16) (ix2 p k) = (V c main_v27 : FVec Ideal S100000x128 .bf16) (ix2 r k) := by
  obtain ⟨-, -, e0, e1, -⟩ := idx_facts t
  unfold iblk1
  rw [View.read_apply]
  show V c main_v27 (((cfg1.win 1).blk t).view.emb (ix2 p k)) = V c main_v27 (ix2 r k)
  refine congrArg (V c main_v27) (funext fun a => Fin.ext ?_)
  match a with
  | ⟨0, _⟩ => show win1_1.index t (0 : Fin 2) * 5000 + 1 * p.val = r.val; rw [e0, hr]; omega
  | ⟨1, _⟩ => show win1_1.index t (1 : Fin 2) * 128 + 1 * k.val = k.val; rw [e1]; omega

/-- Entry p of point t's block of the reciprocal degrees is entry 5000·t + p of the column. -/
theorem read2 (c : Dev nD) (t : Fin cfg1.N) (p : Fin 5000) (r : Fin 100000) (hr : r.val = 5000 * t.val + p.val) :
    (iblk1 V c 2 t : Vec Ideal S5000x1 .f32) (ix2 p (0 : Fin 1)) = (V c main_v12 : FVec Ideal S100000x1 .f32) (ix2 r (0 : Fin 1)) := by
  obtain ⟨-, -, -, -, e0, e1, -⟩ := idx_facts t
  unfold iblk1
  rw [View.read_apply]
  show V c main_v12 (((cfg1.win 2).blk t).view.emb (ix2 p (0 : Fin 1))) = V c main_v12 (ix2 r (0 : Fin 1))
  refine congrArg (V c main_v12) (funext fun a => Fin.ext ?_)
  match a with
  | ⟨0, _⟩ => show win1_2.index t (0 : Fin 2) * 5000 + 1 * p.val = r.val; rw [e0, hr]; omega
  | ⟨1, _⟩ => show win1_2.index t (1 : Fin 2) * 1 + 1 * 0 = 0; rw [e1]

/-- The left weights are read whole at every point. -/
theorem read3 (c : Dev nD) (t : Fin cfg1.N) (k : Fin 128) (c' : Fin 40) :
    (iblk1 V c 3 t : Vec Ideal S128x40 .bf16) (ix2 k c') = (V c main_v39 : FVec Ideal S128x40 .bf16) (ix2 k c') := by
  obtain ⟨-, -, -, -, -, -, e0, e1, -⟩ := idx_facts t
  unfold iblk1
  rw [View.read_apply]
  show V c main_v39 (((cfg1.win 3).blk t).view.emb (ix2 k c')) = V c main_v39 (ix2 k c')
  refine congrArg (V c main_v39) (funext fun a => Fin.ext ?_)
  match a with
  | ⟨0, _⟩ => show win1_3.index t (0 : Fin 2) * 128 + 1 * k.val = k.val; rw [e0]; omega
  | ⟨1, _⟩ => show win1_3.index t (1 : Fin 2) * 40 + 1 * c'.val = c'.val; rw [e1]; omega

/-- The bias is read whole at every point. -/
theorem read4 (c : Dev nD) (t : Fin cfg1.N) (c' : Fin 40) :
    (iblk1 V c 4 t : Vec Ideal S40 .f32) (ix1 c') = (V c main_arg6 : FVec Ideal S40 .f32) (ix1 c') := by
  obtain ⟨-, -, -, -, -, -, -, -, e0, -⟩ := idx_facts t
  unfold iblk1
  rw [View.read_apply]
  show V c main_arg6 (((cfg1.win 4).blk t).view.emb (ix1 c')) = V c main_arg6 (ix1 c')
  refine congrArg (V c main_arg6) (funext fun a => Fin.ext ?_)
  match a with
  | ⟨0, _⟩ => show win1_4.index t (0 : Fin 1) * 40 + 1 * c'.val = c'.val; rw [e0]; omega

/-- The right weights are read whole at every point. -/
theorem read5 (c : Dev nD) (t : Fin cfg1.N) (k : Fin 128) (c' : Fin 40) :
    (iblk1 V c 5 t : Vec Ideal S128x40 .bf16) (ix2 k c') = (V c main_v40 : FVec Ideal S128x40 .bf16) (ix2 k c') := by
  obtain ⟨-, -, -, -, -, -, -, -, -, e0, e1, -⟩ := idx_facts t
  unfold iblk1
  rw [View.read_apply]
  show V c main_v40 (((cfg1.win 5).blk t).view.emb (ix2 k c')) = V c main_v40 (ix2 k c')
  refine congrArg (V c main_v40) (funext fun a => Fin.ext ?_)
  match a with
  | ⟨0, _⟩ => show win1_5.index t (0 : Fin 2) * 128 + 1 * k.val = k.val; rw [e0]; omega
  | ⟨1, _⟩ => show win1_5.index t (1 : Fin 2) * 40 + 1 * c'.val = c'.val; rw [e1]; omega

/-- The output of the arrays as region 1 finds them. -/
abbrev result (c : Dev nD) : FVec Ideal S100000x40 .f32 :=
  outArr (V c main_v38) (V c main_v27) (V c main_v12) (V c main_v39) (V c main_arg6) (V c main_v40)

/-- What point t writes back is block t of the output. -/
theorem flushed_eq (c : Dev nD) (t : Fin cfg1.N) :
    (dat1 V c).flushed 6 t = ((cfg1.win 6).blk t).view.read (Elt Ideal) (result V c) := by
  show (cfg1.win 6).cut (grid1.coords t) ((dat1 V c).after 6 t) = _
  rw [after1_6]
  unfold out1_6
  rw [View.canon_unit_zero hz2]
  simp only [View.ld_unit_zero (S := S5000x1) hz2, View.ld_unit_zero (S := S5000x128) hz2,
    View.ld_unit_zero (S := S128x40) hz2, View.ld_unit_zero (S := S40) hz1]
  funext y
  obtain ⟨p, q, rfl⟩ : ∃ (p : Fin 5000) (q : Fin 40), y = ix2 p q := ⟨y 0, y 1, eq_ix2 y⟩
  have hN : cfg1.N = 20 := N_1
  have hr : 5000 * t.val + p.val < 100000 := by have := t.isLt; omega
  obtain ⟨-, -, -, -, -, -, -, -, -, -, -, e0, e1⟩ := idx_facts t
  refine (Body.out_pay (iblk1 V c 2 t) (iblk1 V c 0 t) (iblk1 V c 1 t) (iblk1 V c 3 t) (iblk1 V c 5 t) (iblk1 V c 4 t) p q).trans ?_
  rw [View.read_apply]
  have he : ((cfg1.win 6).blk t).view.emb (ix2 p q) = ix2 (⟨5000 * t.val + p.val, hr⟩ : Fin 100000) q :=
    funext fun a => Fin.ext (by
      match a with
      | ⟨0, _⟩ => show win1_6.index t (0 : Fin 2) * 5000 + 1 * p.val = 5000 * t.val + p.val; rw [e0]; omega
      | ⟨1, _⟩ => show win1_6.index t (1 : Fin 2) * 40 + 1 * q.val = q.val; rw [e1]; omega)
  rw [he]
  show _ = outArr _ _ _ _ _ _ (ix2 (⟨5000 * t.val + p.val, hr⟩ : Fin 100000) q)
  rw [outArr_apply]
  simp only [read0 V c t p _ ⟨5000 * t.val + p.val, hr⟩ rfl, read1 V c t p _ ⟨5000 * t.val + p.val, hr⟩ rfl,
    read2 V c t p ⟨5000 * t.val + p.val, hr⟩ rfl, read3 V c t, read4 V c t, read5 V c t]

/-- An index of the output array is in point t's block iff its coordinates are in the block's ranges. -/
theorem mem_blk (t : Fin cfg1.N) (i : S100000x40.Idx) :
    i ∈ ((cfg1.win 6).blk t).view.set ↔ ∀ a : Fin 2, win1_6.index t a * S5000x40.size a ≤ (i a).val
      ∧ (i a).val < win1_6.index t a * S5000x40.size a + S5000x40.size a := by
  show i ∈ ((View.whole main_v41).slice (win1_6.rect t)).set ↔ _
  rw [View.set_slice_whole, Rect.mem_set_unit]
  exact Iff.rfl

/-- The twenty blocks tile the output array: row r is in the block of point r / 5000. -/
theorem cover (i : S100000x40.Idx) : ∃ t : Fin cfg1.N, (cfg1.win 6).flush t = true ∧ i ∈ ((cfg1.win 6).blk t).view.set := by
  have h0 : (i 0).val < 100000 := (i 0).isLt
  have h1 : (i 1).val < 40 := (i 1).isLt
  have hN : cfg1.N = 20 := N_1
  have ht : (i 0).val / 5000 < cfg1.N := by rw [hN]; omega
  obtain ⟨-, -, -, -, -, -, -, -, -, -, -, e0, e1⟩ := idx_facts ⟨(i 0).val / 5000, ht⟩
  refine ⟨⟨(i 0).val / 5000, ht⟩, flush1_6 _, ?_⟩
  rw [mem_blk]
  intro a
  match a with
  | ⟨0, _⟩ =>
    show win1_6.index ⟨(i 0).val / 5000, ht⟩ (0 : Fin 2) * 5000 ≤ (i 0).val
      ∧ (i 0).val < win1_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, ht⟩ (1 : Fin 2) * 40 ≤ (i 1).val
      ∧ (i 1).val < win1_6.index ⟨(i 0).val / 5000, ht⟩ (1 : Fin 2) * 40 + 40
    rw [e1]; omega

/-- The output array after the region is the output function of the arrays as the region found them. -/
theorem final (c : Dev nD) : (dat1 V c).arrAt 6 cfg1.N = result V c :=
  (dat1 V c).arrAt_eq_of_cover 6 (result V c) (fun t _ => flushed_eq V c t) cover

end Cert.KernelIdeal.Region1

end
-- ==== Proof.KHost.lean ====
/-
  The host operations of the idealized kernel program, read as functions.

  Before the first region the program splits the edge list into sources and destinations, counts each node's
  incoming edges and takes the reciprocal of the count clamped below by one, and sums over each node's incoming
  edges the source nodes' feature rows (a gather followed by an accumulating scatter).  Between the regions it sums
  the hidden rows the same way.  The changes of float format around these are the identity on the extended reals
  but are kept here as the program spells them.
-/
import proofs.«165936_j38628935860964_2_alg».proof.Proof.Gen.KernelIdeal.Launch
import Idealize.ShloMosaic.Lib.StableHlo.Run

noncomputable section

namespace Cert.KernelIdeal.HostOps

open Cert.KernelIdeal Cert.KernelIdeal.Gen Idealize.ShloMosaic Idealize.ShloMosaic.TcCoe Idealize.SL.Sem Idealize.ShloMosaic.StableHlo

variable {F : FTy → Type} [FloatOps F]

/-- The edges' source nodes: row 0 of the edge list. -/
def srcOf (e : IVec S2x1600000 32) : IVec S1600000 32 :=
  shapeCast S1600000 (extractStridedSlice S1x1600000 ![0, 0] e slices_S2x1600000_S1x1600000_0_0) shapeCasts_S1x1600000_S1600000

/-- The edges' destination nodes: row 1 of the edge list. -/
def dstOf (e : IVec S2x1600000 32) : IVec S1600000 32 :=
  shapeCast S1600000 (extractStridedSlice S1x1600000 ![1, 0] e slices_S2x1600000_S1x1600000_1_0) shapeCasts_S1x1600000_S1600000

/-- Each node's number of incoming edges: ones accumulated at the destinations. -/
def degOf (dst : IVec S1600000 32) : FVec F S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 dst)
    (broadcastInDim S1600000 ![] bcast_S_S1600000 (constant S_ .f32 0x3F800000#32))

/-- The reciprocal of the in-degree clamped below by one, as a column. -/
def invOf (dst : IVec S1600000 32) : FVec F S100000x1 .f32 :=
  shapeCast S100000x1 (Host.divf (broadcastInDim S100000 ![] bcast_S_S100000 (constant S_ .f32 0x3F800000#32))
    (maximumf (degOf dst) (broadcastInDim S100000 ![] bcast_S_S100000 (constant S_ .f32 0x3F800000#32)))) shapeCasts_S100000_S100000x1

/-- A source index with a negative value wrapped once by the node count, as a column of indices. -/
def wrapOf (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- For each node the sum over its incoming edges of the source nodes' rows of h. -/
def summedOf (h : FVec F S100000x128 .bf16) (src dst : IVec S1600000 32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (extf .f32 (Host.gather gather_S100000x128_S1600000x1_S1600000x128_1_0_n_n_0_1_1128 h (wrapOf src)) bitsLt_bf16_f32)

variable (W : Valuation τ sig (Elt F))

/-! ## The stretch before the first region -/

theorem pre_src : after hostOps0 W (Proc.devRef .tc main_v1) = srcOf (W (Proc.devRef .tc main_arg1)) := by
  dsimp only [hostOps0]; after_results_simp <;> rfl

theorem pre_dst : after hostOps0 W (Proc.devRef .tc main_v3) = dstOf (W (Proc.devRef .tc main_arg1)) := by
  dsimp only [hostOps0]; after_results_simp <;> rfl

theorem pre_inv : after hostOps0 W (Proc.devRef .tc main_v12) = invOf (F := F) (dstOf (W (Proc.devRef .tc main_arg1))) := by
  dsimp only [hostOps0]; after_results_simp <;> rfl

theorem pre_x : after hostOps0 W (Proc.devRef .tc main_v13)
    = truncf .bf16 (W (Proc.devRef .tc main_arg0) : FVec F S100000x128 .f32) bitsLt_bf16_f32 := by
  dsimp only [hostOps0]; after_results_simp <;> rfl

theorem pre_summed : after hostOps0 W (Proc.devRef .tc main_v24)
    = summedOf (truncf .bf16 (W (Proc.devRef .tc main_arg0) : FVec F S100000x128 .f32) bitsLt_bf16_f32)
        (srcOf (W (Proc.devRef .tc main_arg1))) (dstOf (W (Proc.devRef .tc main_arg1))) := by
  dsimp only [hostOps0]; after_results_simp <;> rfl

theorem pre_wl : after hostOps0 W (Proc.devRef .tc main_v25)
    = truncf .bf16 (W (Proc.devRef .tc main_arg2) : FVec F S128x128 .f32) bitsLt_bf16_f32 := by
  dsimp only [hostOps0]; after_results_simp <;> rfl

theorem pre_wr : after hostOps0 W (Proc.devRef .tc main_v26)
    = truncf .bf16 (W (Proc.devRef .tc main_arg4) : FVec F S128x128 .f32) bitsLt_bf16_f32 := by
  dsimp only [hostOps0]; after_results_simp <;> rfl

theorem pre_arg3 : after hostOps0 W (Proc.devRef .tc main_arg3) = W (Proc.devRef .tc main_arg3) := by
  dsimp only [hostOps0]; after_results_simp <;> rfl
theorem pre_arg5 : after hostOps0 W (Proc.devRef .tc main_arg5) = W (Proc.devRef .tc main_arg5) := by
  dsimp only [hostOps0]; after_results_simp <;> rfl
theorem pre_arg6 : after hostOps0 W (Proc.devRef .tc main_arg6) = W (Proc.devRef .tc main_arg6) := by
  dsimp only [hostOps0]; after_results_simp <;> rfl
theorem pre_arg7 : after hostOps0 W (Proc.devRef .tc main_arg7) = W (Proc.devRef .tc main_arg7) := by
  dsimp only [hostOps0]; after_results_simp <;> rfl

/-! ## The stretch between the regions -/

theorem mid_summed : after hostOps1 W (Proc.devRef .tc main_v38)
    = summedOf (W (Proc.devRef .tc main_v27) : FVec F S100000x128 .bf16) (W (Proc.devRef .tc main_v1)) (W (Proc.devRef .tc main_v3)) := by
  dsimp only [hostOps1]; after_results_simp <;> rfl

theorem mid_h : after hostOps1 W (Proc.devRef .tc main_v27) = W (Proc.devRef .tc main_v27) := by
  dsimp only [hostOps1]; after_results_simp <;> rfl
theorem mid_inv : after hostOps1 W (Proc.devRef .tc main_v12) = W (Proc.devRef .tc main_v12) := by
  dsimp only [hostOps1]; after_results_simp <;> rfl
theorem mid_arg6 : after hostOps1 W (Proc.devRef .tc main_arg6) = W (Proc.devRef .tc main_arg6) := by
  dsimp only [hostOps1]; after_results_simp <;> rfl
theorem mid_wl : after hostOps1 W (Proc.devRef .tc main_v39)
    = truncf .bf16 (W (Proc.devRef .tc main_arg5) : FVec F S128x40 .f32) bitsLt_bf16_f32 := by
  dsimp only [hostOps1]; after_results_simp <;> rfl
theorem mid_wr : after hostOps1 W (Proc.devRef .tc main_v40)
    = truncf .bf16 (W (Proc.devRef .tc main_arg7) : FVec F S128x40 .f32) bitsLt_bf16_f32 := by
  dsimp only [hostOps1]; after_results_simp <;> rfl

end Cert.KernelIdeal.HostOps

end
-- ==== Proof.KValue.lean ====
/-
  The idealized kernel program's result as one function of its eight arguments.

  The result buffer ends at what the second region writes; the second region's operands are what the host
  operations between the regions make of the first region's output, the edge list and the weights; the first
  region's operands are what the host operations before it make of the arguments.  Composing the three readings
  gives the result as a two-layer function of the arguments.
-/
import proofs.«165936_j38628935860964_2_alg».proof.Proof.KRun
import proofs.«165936_j38628935860964_2_alg».proof.Proof.Region0
import proofs.«165936_j38628935860964_2_alg».proof.Proof.Region1
import proofs.«165936_j38628935860964_2_alg».proof.Proof.KHost

noncomputable section

namespace Cert.KernelIdeal.Whole

open Cert.KernelIdeal Cert.KernelIdeal.Gen Idealize.ShloMosaic Idealize.ShloMosaic.TcCoe Idealize.SL.Sem
open Idealize.ShloMosaic.StableHlo Cert.KernelIdeal.HostOps
open Idealize.ShloMosaic.Pipeline (Dat)

/-- The hidden layer as the kernel program computes it from the arguments. -/
def hiddenOf (x : FVec Ideal S100000x128 .f32) (e : IVec S2x1600000 32) (w1l : FVec Ideal S128x128 .f32) (b1 : FVec Ideal S128 .f32)
    (w1r : FVec Ideal S128x128 .f32) : FVec Ideal S100000x128 .bf16 :=
  Region0.hiddenArr (summedOf (truncf .bf16 x bitsLt_bf16_f32) (srcOf e) (dstOf e)) (truncf .bf16 x bitsLt_bf16_f32)
    (invOf (dstOf e)) (truncf .bf16 w1l bitsLt_bf16_f32) b1 (truncf .bf16 w1r bitsLt_bf16_f32)

/-- The result as the kernel program computes it from the arguments. -/
def outOf (x : FVec Ideal S100000x128 .f32) (e : IVec S2x1600000 32) (w1l : FVec Ideal S128x128 .f32) (b1 : FVec Ideal S128 .f32)
    (w1r : FVec Ideal S128x128 .f32) (w2l : FVec Ideal S128x40 .f32) (b2 : FVec Ideal S40 .f32) (w2r : FVec Ideal S128x40 .f32) :
    FVec Ideal S100000x40 .f32 :=
  Region1.outArr (summedOf (hiddenOf x e w1l b1 w1r) (srcOf e) (dstOf e)) (hiddenOf x e w1l b1 w1r)
    (invOf (dstOf e)) (truncf .bf16 w2l bitsLt_bf16_f32) b2 (truncf .bf16 w2r bitsLt_bf16_f32)

variable (m : (ℓ : Loc nD τ sig) → Buf (Elt Ideal) ℓ) (ρ : Dev nD → PrngReg)

/-- The first region's output array is the hidden layer of the arguments. -/
theorem hidden_eq (c : Dev nD) :
    W2 m ρ c (Proc.devRef .tc main_v27)
      = hiddenOf (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  refine (W2_arr m ρ c 6).trans ((Region0.final (V1 m ρ) c).trans ?_)
  show Region0.hiddenArr (after hostOps0 (W0 m ρ c) (Proc.devRef .tc main_v24)) (after hostOps0 (W0 m ρ c) (Proc.devRef .tc main_v13))
      (after hostOps0 (W0 m ρ c) (Proc.devRef .tc main_v12)) (after hostOps0 (W0 m ρ c) (Proc.devRef .tc main_v25))
      (after hostOps0 (W0 m ρ c) (Proc.devRef .tc main_arg3)) (after hostOps0 (W0 m ρ c) (Proc.devRef .tc main_v26)) = _
  rw [pre_summed, pre_x, pre_inv, pre_wl, pre_arg3, pre_wr]
  rfl

/-- The reciprocal degrees pass through the first region unchanged. -/
theorem inv_eq (c : Dev nD) :
    W2 m ρ c (Proc.devRef .tc main_v12) = invOf (F := Ideal) (dstOf (m ((c.tc : Thread nD τ).loc main_arg1))) := by
  refine (W2_arr m ρ c 2).trans (((dat0 (V1 m ρ) c).arrAt_in 2 rfl _).trans ?_)
  show after hostOps0 (W0 m ρ c) (Proc.devRef .tc main_v12) = _
  rw [pre_inv]

theorem src_eq (c : Dev nD) : W2 m ρ c (Proc.devRef .tc main_v1) = srcOf (m ((c.tc : Thread nD τ).loc main_arg1)) :=
  (W2_of_ne m ρ c main_v1 (by decide)).trans ((pre_src (W0 m ρ c)).trans rfl)
theorem dst_eq (c : Dev nD) : W2 m ρ c (Proc.devRef .tc main_v3) = dstOf (m ((c.tc : Thread nD τ).loc main_arg1)) :=
  (W2_of_ne m ρ c main_v3 (by decide)).trans ((pre_dst (W0 m ρ c)).trans rfl)
theorem arg5_eq (c : Dev nD) : W2 m ρ c (Proc.devRef .tc main_arg5) = m ((c.tc : Thread nD τ).loc main_arg5) :=
  (W2_of_ne m ρ c main_arg5 (by decide)).trans ((pre_arg5 (W0 m ρ c)).trans rfl)
theorem arg6_eq (c : Dev nD) : W2 m ρ c (Proc.devRef .tc main_arg6) = m ((c.tc : Thread nD τ).loc main_arg6) :=
  (W2_of_ne m ρ c main_arg6 (by decide)).trans ((pre_arg6 (W0 m ρ c)).trans rfl)
theorem arg7_eq (c : Dev nD) : W2 m ρ c (Proc.devRef .tc main_arg7) = m ((c.tc : Thread nD τ).loc main_arg7) :=
  (W2_of_ne m ρ c main_arg7 (by decide)).trans ((pre_arg7 (W0 m ρ c)).trans rfl)

/-- The result buffer ends at the two-layer function of the arguments. -/
theorem result_eq (c : Dev nD) :
    W4 m ρ c (Proc.devRef .tc main_v41)
      = outOf (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  refine (W4_arr m ρ c 6).trans ((Region1.final (V3 m ρ) c).trans ?_)
  show Region1.outArr (after hostOps1 (W2 m ρ c) (Proc.devRef .tc main_v38)) (after hostOps1 (W2 m ρ c) (Proc.devRef .tc main_v27))
      (after hostOps1 (W2 m ρ c) (Proc.devRef .tc main_v12)) (after hostOps1 (W2 m ρ c) (Proc.devRef .tc main_v39))
      (after hostOps1 (W2 m ρ c) (Proc.devRef .tc main_arg6)) (after hostOps1 (W2 m ρ c) (Proc.devRef .tc main_v40)) = _
  rw [mid_summed, mid_h, mid_inv, mid_wl, mid_arg6, mid_wr, hidden_eq, inv_eq, src_eq, dst_eq, arg5_eq, arg6_eq, arg7_eq]
  rfl

/-- The run with the result named: every weakly fair execution terminates, the result buffer at the two-layer function
    of the arguments, the arguments unchanged. -/
theorem run : θ_run defs (onTc (τ := τ) (main (F := Ideal))) ⟨m, fun _ => 0, ρ⟩ (fun r => ∀ c : Dev nD,
      r.2.mem ((c.tc : Thread nD τ).loc main_v41)
        = outOf (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (result_eq m ρ c), (h c).2⟩) (Named.run (F := Ideal) m ρ)

end Cert.KernelIdeal.Whole

end
-- ==== Proof.RefRun.lean ====
/-
  The reference program's run, read back in three stages.

  The reference is a straight line of host operations: the first thirty-eight compute the hidden layer from the
  arguments, the next thirty-one the logits from the hidden layer, the last fifteen the row-wise log-softmax of the
  logits.  Each stage's result is a short
  composition of named functions (the mean over incoming edges, a layer's linear map, the row-wise log-softmax),
  and the whole run is their composition.
-/
import proofs.«165936_j38628935860964_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- The operations up to the hidden layer, in order (a called function's operations stand in its call's place). -/
abbrev ops1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_1 (constant S_ .f32 0x3F800000#32),
    unary main_cst_1 main_v14 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x128 ![0, 1] bcast_S100000x1_S100000x128_0_1 : (⟨S100000x1, .f32⟩ : BufTy).Contents (Elt F) → (⟨S100000x128, .f32⟩ : BufTy).Contents (Elt F)),
    binary main_v13 main_v21 main_v22 (Host.divf : (⟨S100000x128, .f32⟩ : BufTy).Contents (Elt F) → (⟨S100000x128, .f32⟩ : BufTy).Contents (Elt F) → (⟨S100000x128, .f32⟩ : BufTy).Contents (Elt F)),
    binary main_v22 main_arg2 main_v23 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v24 (broadcastInDim S1x128 ![1] bcast_S128_S1x128_1 : (⟨S128, .f32⟩ : BufTy).Contents (Elt F) → (⟨S1x128, .f32⟩ : BufTy).Contents (Elt F)),
    unary main_v24 main_v25 (broadcastInDim S100000x128 ![0, 1] bcast_S1x128_S100000x128_0_1 : (⟨S1x128, .f32⟩ : BufTy).Contents (Elt F) → (⟨S100000x128, .f32⟩ : BufTy).Contents (Elt F)),
    binary main_v23 main_v25 main_v26 (addf : (⟨S100000x128, .f32⟩ : BufTy).Contents (Elt F) → (⟨S100000x128, .f32⟩ : BufTy).Contents (Elt F) → (⟨S100000x128, .f32⟩ : BufTy).Contents (Elt F)),
    binary main_arg0 main_arg4 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v26 main_v27 main_v28 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v28) (TRef.of (T := ⟨S100000x128, .f32⟩) main_call0_v0) (TRef.of (T := ⟨S100000x128, .f32⟩) main_v29) maximumf ]

/-- The operations from the hidden layer to the logits. -/
abbrev ops2 : List (HloOp τ sig (Elt F)) :=
  [ nullary main_c_4 (constantI S_ 32 0#32),
    unary main_c_4 main_v30 (broadcastInDim S1600000 ![] bcast_S_S1600000 : (⟨S_, .i32⟩ : BufTy).Contents (Elt F) → (⟨S1600000, .i32⟩ : BufTy).Contents (Elt F)),
    binary main_v1 main_v30 main_v31 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v32 (broadcastInDim S1600000 ![] bcast_S_S1600000 : (⟨S_, .i32⟩ : BufTy).Contents (Elt F) → (⟨S1600000, .i32⟩ : BufTy).Contents (Elt F)),
    binary main_v1 main_v32 main_v33 (addi : (⟨S1600000, .i32⟩ : BufTy).Contents (Elt F) → (⟨S1600000, .i32⟩ : BufTy).Contents (Elt F) → (⟨S1600000, .i32⟩ : BufTy).Contents (Elt F)),
    ternary main_v31 main_v33 main_v1 main_v34 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v34 main_v35 (broadcastInDim S1600000x1 ![0] bcast_S1600000_S1600000x1_0 : (⟨S1600000, .i32⟩ : BufTy).Contents (Elt F) → (⟨S1600000x1, .i32⟩ : BufTy).Contents (Elt F)),
    binary main_v29 main_v35 main_v36 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_6 (constant S_ .f32 0x00000000#32),
    unary main_cst_6 main_v37 (broadcastInDim S100000x128 ![] bcast_S_S100000x128 : (⟨S_, .f32⟩ : BufTy).Contents (Elt F) → (⟨S100000x128, .f32⟩ : BufTy).Contents (Elt F)),
    unary main_v3 main_v38 (broadcastInDim S1600000x1 ![0] bcast_S1600000_S1600000x1_0 : (⟨S1600000, .i32⟩ : BufTy).Contents (Elt F) → (⟨S1600000x1, .i32⟩ : BufTy).Contents (Elt F)),
    ternary main_v37 main_v38 main_v36 main_v39 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_7 (constant S_ .f32 0x3F800000#32),
    unary main_cst_7 main_v40 (broadcastInDim S1600000 ![] bcast_S_S1600000 : (⟨S_, .f32⟩ : BufTy).Contents (Elt F) → (⟨S1600000, .f32⟩ : BufTy).Contents (Elt F)),
    nullary main_cst_8 (constant S_ .f32 0x00000000#32),
    unary main_cst_8 main_v41 (broadcastInDim S100000 ![] bcast_S_S100000 : (⟨S_, .f32⟩ : BufTy).Contents (Elt F) → (⟨S100000, .f32⟩ : BufTy).Contents (Elt F)),
    unary main_v3 main_v42 (broadcastInDim S1600000x1 ![0] bcast_S1600000_S1600000x1_0 : (⟨S1600000, .i32⟩ : BufTy).Contents (Elt F) → (⟨S1600000x1, .i32⟩ : BufTy).Contents (Elt F)),
    ternary main_v41 main_v42 main_v40 main_v43 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_9 (constant S_ .f32 0x3F800000#32),
    unary main_cst_9 main_v44 (broadcastInDim S100000 ![] bcast_S_S100000 : (⟨S_, .f32⟩ : BufTy).Contents (Elt F) → (⟨S100000, .f32⟩ : BufTy).Contents (Elt F)),
    binary main_v43 main_v44 main_v45 (maximumf : (⟨S100000, .f32⟩ : BufTy).Contents (Elt F) → (⟨S100000, .f32⟩ : BufTy).Contents (Elt F) → (⟨S100000, .f32⟩ : BufTy).Contents (Elt F)),
    unary main_v45 main_v46 (broadcastInDim S100000x1 ![0] bcast_S100000_S100000x1_0 : (⟨S100000, .f32⟩ : BufTy).Contents (Elt F) → (⟨S100000x1, .f32⟩ : BufTy).Contents (Elt F)),
    unary main_v46 main_v47 (broadcastInDim S100000x128 ![0, 1] bcast_S100000x1_S100000x128_0_1 : (⟨S100000x1, .f32⟩ : BufTy).Contents (Elt F) → (⟨S100000x128, .f32⟩ : BufTy).Contents (Elt F)),
    binary main_v39 main_v47 main_v48 (Host.divf : (⟨S100000x128, .f32⟩ : BufTy).Contents (Elt F) → (⟨S100000x128, .f32⟩ : BufTy).Contents (Elt F) → (⟨S100000x128, .f32⟩ : BufTy).Contents (Elt F)),
    binary main_v48 main_arg5 main_v49 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    unary main_arg6 main_v50 (broadcastInDim S1x40 ![1] bcast_S40_S1x40_1 : (⟨S40, .f32⟩ : BufTy).Contents (Elt F) → (⟨S1x40, .f32⟩ : BufTy).Contents (Elt F)),
    unary main_v50 main_v51 (broadcastInDim S100000x40 ![0, 1] bcast_S1x40_S100000x40_0_1 : (⟨S1x40, .f32⟩ : BufTy).Contents (Elt F) → (⟨S100000x40, .f32⟩ : BufTy).Contents (Elt F)),
    binary main_v49 main_v51 main_v52 (addf : (⟨S100000x40, .f32⟩ : BufTy).Contents (Elt F) → (⟨S100000x40, .f32⟩ : BufTy).Contents (Elt F) → (⟨S100000x40, .f32⟩ : BufTy).Contents (Elt F)),
    binary main_v29 main_arg7 main_v53 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    binary main_v52 main_v53 main_v54 (addf : (⟨S100000x40, .f32⟩ : BufTy).Contents (Elt F) → (⟨S100000x40, .f32⟩ : BufTy).Contents (Elt F) → (⟨S100000x40, .f32⟩ : BufTy).Contents (Elt F)) ]

/-- The operations of the row-wise log-softmax (a called function's, in its call's place). -/
abbrev ops3 : List (HloOp τ sig (Elt F)) :=
  [ TRef.nullary (TRef.of (T := ⟨S_, .f32⟩) main_call1_cst) (constant S_ .f32 0xFF800000#32),
    TRef.binary (TRef.of (T := ⟨S100000x40, .f32⟩) main_v54) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v54) (TRef.of (T := ⟨S100000x40, .f32⟩) main_call1_v4) (TRef.of (T := ⟨S100000x40, .f32⟩) main_call1_v5) subf,
    TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v55) subf ]

/-- The whole program. -/
abbrev ops : List (HloOp τ sig (Elt F)) := ops1 ++ (ops2 ++ ops3)

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops1_sub : (ops1 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub ..⟩
set_option maxRecDepth 8192 in
theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub ..⟩
set_option maxRecDepth 8192 in
theorem ops3_sub : (ops3 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem ops_sub : (ops : List (HloOp τ sig (Elt F))).Forall fun op => op.bufs ⊆ tcRefs τ sig :=
  List.forall_iff_forall_mem.mpr fun op h => (List.mem_append.mp h).elim
    (List.forall_iff_forall_mem.mp ops1_sub op) fun h' => (List.mem_append.mp h').elim
      (List.forall_iff_forall_mem.mp ops2_sub op) (List.forall_iff_forall_mem.mp ops3_sub op)

/-- Running one list of operations after another composes their effects on the buffers. -/
theorem after_append (l1 l2 : List (HloOp τ sig (Elt F))) (W : Valuation τ sig (Elt F)) :
    after (l1 ++ l2) W = after l2 (after l1 W) := by
  induction l1 generalizing W with
  | nil => rfl
  | cons op l ih => exact ih _

/-! ## The stages as functions -/

/-- The edges' source nodes: row 0 of the edge list. -/
def srcOf (e : IVec S2x1600000 32) : IVec S1600000 32 :=
  shapeCast S1600000 (extractStridedSlice S1x1600000 ![0, 0] e slices_S2x1600000_S1x1600000_0_0) shapeCasts_S1x1600000_S1600000

/-- The edges' destination nodes: row 1 of the edge list. -/
def dstOf (e : IVec S2x1600000 32) : IVec S1600000 32 :=
  shapeCast S1600000 (extractStridedSlice S1x1600000 ![1, 0] e slices_S2x1600000_S1x1600000_1_0) shapeCasts_S1x1600000_S1600000

/-- Each node's number of incoming edges: ones accumulated at the destinations. -/
def degOf (dst : IVec S1600000 32) : FVec F S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 dst)
    (broadcastInDim S1600000 ![] bcast_S_S1600000 (constant S_ .f32 0x3F800000#32))

/-- The in-degree clamped below by one, repeated along each node's row. -/
def clampOf (dst : IVec S1600000 32) : FVec F S100000x128 .f32 :=
  broadcastInDim S100000x128 ![0, 1] bcast_S100000x1_S100000x128_0_1 (broadcastInDim S100000x1 ![0] bcast_S100000_S100000x1_0
    (maximumf (degOf dst) (broadcastInDim S100000 ![] bcast_S_S100000 (constant S_ .f32 0x3F800000#32))))

/-- A source index with a negative value wrapped once by the node count, as a column of indices. -/
def wrapOf (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- For each node the sum over its incoming edges of the source nodes' rows of h. -/
def summedOf (h : FVec F S100000x128 .f32) (src dst : IVec S1600000 32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 h (wrapOf src))

/-- The mean over incoming edges: the sum divided by the clamped in-degree. -/
def meanOf (h : FVec F S100000x128 .f32) (src dst : IVec S1600000 32) : FVec F S100000x128 .f32 :=
  Host.divf (summedOf h src dst) (clampOf dst)

/-- The hidden layer. -/
def hiddenOf (x : FVec F S100000x128 .f32) (wl : FVec F S128x128 .f32) (b : FVec F S128 .f32) (wr : FVec F S128x128 .f32)
    (src dst : IVec S1600000 32) : FVec F S100000x128 .f32 :=
  maximumf (addf (addf (Host.dotGeneral dot_S100000x128_S128x128_S100000x128_1_0_0_1_n_n none (meanOf x src dst) wl)
      (broadcastInDim S100000x128 ![0, 1] bcast_S1x128_S100000x128_0_1 (broadcastInDim S1x128 ![1] bcast_S128_S1x128_1 b)))
      (Host.dotGeneral dot_S100000x128_S128x128_S100000x128_1_0_0_1_n_n none x wr))
    (broadcastInDim S100000x128 ![] bcast_S_S100000x128 (constant S_ .f32 0x00000000#32))

/-- The logits. -/
def logitsOf (h : FVec F S100000x128 .f32) (wl : FVec F S128x40 .f32) (b : FVec F S40 .f32) (wr : FVec F S128x40 .f32)
    (src dst : IVec S1600000 32) : FVec F S100000x40 .f32 :=
  addf (addf (Host.dotGeneral dot_S100000x128_S128x40_S100000x40_1_0_0_1_n_n none (meanOf h src dst) wl)
      (broadcastInDim S100000x40 ![0, 1] bcast_S1x40_S100000x40_0_1 (broadcastInDim S1x40 ![1] bcast_S40_S1x40_1 b)))
    (Host.dotGeneral dot_S100000x128_S128x40_S100000x40_1_0_0_1_n_n none h wr)

/-- Each row's maximum (from minus infinity), repeated along the row. -/
def rowMaxOf (z : FVec F S100000x40 .f32) : FVec F S100000x40 .f32 :=
  broadcastInDim S100000x40 ![0, 1] bcast_S100000x1_S100000x40_0_1 (broadcastInDim S100000x1 ![0] bcast_S100000_S100000x1_0
    (maximumf (broadcastInDim S100000 ![] bcast_S_S100000 (constant S_ .f32 0xFF800000#32))
      (Host.reduce FloatOps.maximumf z (constant S_ .f32 0xFF800000#32) reducesTo_S100000x40_S100000_d1 h_S_)))

/-- The row-wise log-softmax. -/
def lsmOf (z : FVec F S100000x40 .f32) : FVec F S100000x40 .f32 :=
  subf (subf z (rowMaxOf z))
    (broadcastInDim S100000x40 ![0, 1] bcast_S100000x1_S100000x40_0_1 (Host.log (broadcastInDim S100000x1 ![0] bcast_S100000_S100000x1_0
      (Host.reduceAdd (Host.exp (subf z (rowMaxOf z))) (constant S_ .f32 0x00000000#32) reducesTo_S100000x40_S100000_d1 h_S_))))

/-- The whole reference as a function of its eight arguments. -/
def outOf (x : FVec F S100000x128 .f32) (e : IVec S2x1600000 32) (w1l : FVec F S128x128 .f32) (b1 : FVec F S128 .f32)
    (w1r : FVec F S128x128 .f32) (w2l : FVec F S128x40 .f32) (b2 : FVec F S40 .f32) (w2r : FVec F S128x40 .f32) :
    FVec F S100000x40 .f32 :=
  lsmOf (logitsOf (hiddenOf x w1l b1 w1r (srcOf e) (dstOf e)) w2l b2 w2r (srcOf e) (dstOf e))

/-! ## The stages' results -/

variable (W : Valuation τ sig (Elt F))

set_option maxRecDepth 65536 in
set_option maxHeartbeats 4000000 in
theorem stage1_hidden : after ops1 W (Proc.devRef .tc main_v29)
    = hiddenOf (W (Proc.devRef .tc main_arg0)) (W (Proc.devRef .tc main_arg2)) (W (Proc.devRef .tc main_arg3))
        (W (Proc.devRef .tc main_arg4)) (srcOf (W (Proc.devRef .tc main_arg1))) (dstOf (W (Proc.devRef .tc main_arg1))) := by
  after_results_simp <;> rfl

theorem stage1_src : after ops1 W (Proc.devRef .tc main_v1) = srcOf (W (Proc.devRef .tc main_arg1)) := by
  after_results_simp <;> rfl
theorem stage1_dst : after ops1 W (Proc.devRef .tc main_v3) = dstOf (W (Proc.devRef .tc main_arg1)) := by
  after_results_simp <;> rfl
theorem stage1_arg0 : after ops1 W (Proc.devRef .tc main_arg0) = W (Proc.devRef .tc main_arg0) := by
  after_results_simp <;> rfl
theorem stage1_arg1 : after ops1 W (Proc.devRef .tc main_arg1) = W (Proc.devRef .tc main_arg1) := by
  after_results_simp <;> rfl
theorem stage1_arg2 : after ops1 W (Proc.devRef .tc main_arg2) = W (Proc.devRef .tc main_arg2) := by
  after_results_simp <;> rfl
theorem stage1_arg3 : after ops1 W (Proc.devRef .tc main_arg3) = W (Proc.devRef .tc main_arg3) := by
  after_results_simp <;> rfl
theorem stage1_arg4 : after ops1 W (Proc.devRef .tc main_arg4) = W (Proc.devRef .tc main_arg4) := by
  after_results_simp <;> rfl
theorem stage1_arg5 : after ops1 W (Proc.devRef .tc main_arg5) = W (Proc.devRef .tc main_arg5) := by
  after_results_simp <;> rfl
theorem stage1_arg6 : after ops1 W (Proc.devRef .tc main_arg6) = W (Proc.devRef .tc main_arg6) := by
  after_results_simp <;> rfl
theorem stage1_arg7 : after ops1 W (Proc.devRef .tc main_arg7) = W (Proc.devRef .tc main_arg7) := by
  after_results_simp <;> rfl

set_option maxRecDepth 65536 in
set_option maxHeartbeats 4000000 in
theorem stage2_logits : after ops2 W (Proc.devRef .tc main_v54)
    = logitsOf (W (Proc.devRef .tc main_v29)) (W (Proc.devRef .tc main_arg5)) (W (Proc.devRef .tc main_arg6))
        (W (Proc.devRef .tc main_arg7)) (W (Proc.devRef .tc main_v1)) (W (Proc.devRef .tc main_v3)) := by
  after_results_simp <;> rfl
theorem stage2_arg0 : after ops2 W (Proc.devRef .tc main_arg0) = W (Proc.devRef .tc main_arg0) := by
  after_results_simp <;> rfl
theorem stage2_arg1 : after ops2 W (Proc.devRef .tc main_arg1) = W (Proc.devRef .tc main_arg1) := by
  after_results_simp <;> rfl
theorem stage2_arg2 : after ops2 W (Proc.devRef .tc main_arg2) = W (Proc.devRef .tc main_arg2) := by
  after_results_simp <;> rfl
theorem stage2_arg3 : after ops2 W (Proc.devRef .tc main_arg3) = W (Proc.devRef .tc main_arg3) := by
  after_results_simp <;> rfl
theorem stage2_arg4 : after ops2 W (Proc.devRef .tc main_arg4) = W (Proc.devRef .tc main_arg4) := by
  after_results_simp <;> rfl
theorem stage2_arg5 : after ops2 W (Proc.devRef .tc main_arg5) = W (Proc.devRef .tc main_arg5) := by
  after_results_simp <;> rfl
theorem stage2_arg6 : after ops2 W (Proc.devRef .tc main_arg6) = W (Proc.devRef .tc main_arg6) := by
  after_results_simp <;> rfl
theorem stage2_arg7 : after ops2 W (Proc.devRef .tc main_arg7) = W (Proc.devRef .tc main_arg7) := by
  after_results_simp <;> rfl

/-- Contents moved to a typed reference's buffer type and back are unchanged. -/
theorem ofBuf_toBuf {T : BufTy} (x : TRef sig T) (v : T.Contents (Elt F)) : x.ofBuf (x.toBuf v) = v := by
  show cast _ (cast _ v) = v
  rw [cast_cast]
  exact cast_eq _ _

/-- At the result buffer and at the logits' buffer the typed reference's type is the buffer's own: the moves are
    the identity. -/
theorem out_cast (v : FVec F S100000x40 .f32) :
    (TRef.of (T := ⟨S100000x40, .f32⟩) main_v55).toBuf (Val := Elt F) v = v := rfl
theorem in_cast (w : (Proc.devRef .tc main_v54 : DevRef τ sig).ty.Contents (Elt F)) :
    (TRef.of (T := ⟨S100000x40, .f32⟩) main_v54).ofBuf (Val := Elt F) w = w := rfl

set_option maxRecDepth 65536 in
set_option maxHeartbeats 4000000 in
theorem stage3_lsm : after ops3 W (Proc.devRef .tc main_v55)
    = (TRef.of (T := ⟨S100000x40, .f32⟩) main_v55).toBuf
        (lsmOf ((TRef.of (T := ⟨S100000x40, .f32⟩) main_v54).ofBuf (W (Proc.devRef .tc main_v54)))) := by
  after_results_simp
  simp only [ofBuf_toBuf]
  unfold lsmOf rowMaxOf
  rfl
theorem stage3_arg0 : after ops3 W (Proc.devRef .tc main_arg0) = W (Proc.devRef .tc main_arg0) := by
  after_results_simp <;> rfl
theorem stage3_arg1 : after ops3 W (Proc.devRef .tc main_arg1) = W (Proc.devRef .tc main_arg1) := by
  after_results_simp <;> rfl
theorem stage3_arg2 : after ops3 W (Proc.devRef .tc main_arg2) = W (Proc.devRef .tc main_arg2) := by
  after_results_simp <;> rfl
theorem stage3_arg3 : after ops3 W (Proc.devRef .tc main_arg3) = W (Proc.devRef .tc main_arg3) := by
  after_results_simp <;> rfl
theorem stage3_arg4 : after ops3 W (Proc.devRef .tc main_arg4) = W (Proc.devRef .tc main_arg4) := by
  after_results_simp <;> rfl
theorem stage3_arg5 : after ops3 W (Proc.devRef .tc main_arg5) = W (Proc.devRef .tc main_arg5) := by
  after_results_simp <;> rfl
theorem stage3_arg6 : after ops3 W (Proc.devRef .tc main_arg6) = W (Proc.devRef .tc main_arg6) := by
  after_results_simp <;> rfl
theorem stage3_arg7 : after ops3 W (Proc.devRef .tc main_arg7) = W (Proc.devRef .tc main_arg7) := by
  after_results_simp <;> rfl

/-- The result buffer after the whole program. -/
theorem value : after ops W (Proc.devRef .tc main_v55)
    = outOf (W (Proc.devRef .tc main_arg0)) (W (Proc.devRef .tc main_arg1)) (W (Proc.devRef .tc main_arg2))
        (W (Proc.devRef .tc main_arg3)) (W (Proc.devRef .tc main_arg4)) (W (Proc.devRef .tc main_arg5))
        (W (Proc.devRef .tc main_arg6)) (W (Proc.devRef .tc main_arg7)) := by
  show after (ops1 ++ (ops2 ++ ops3)) W _ = _
  rw [after_append, after_append, stage3_lsm, out_cast, in_cast, stage2_logits, stage1_hidden, stage1_src, stage1_dst,
    stage1_arg5, stage1_arg6, stage1_arg7]
  rfl

theorem kept0 : after ops W (Proc.devRef .tc main_arg0) = W (Proc.devRef .tc main_arg0) := by
  show after (ops1 ++ (ops2 ++ ops3)) W _ = _
  rw [after_append, after_append, stage3_arg0, stage2_arg0, stage1_arg0]
theorem kept1 : after ops W (Proc.devRef .tc main_arg1) = W (Proc.devRef .tc main_arg1) := by
  show after (ops1 ++ (ops2 ++ ops3)) W _ = _
  rw [after_append, after_append, stage3_arg1, stage2_arg1, stage1_arg1]
theorem kept2 : after ops W (Proc.devRef .tc main_arg2) = W (Proc.devRef .tc main_arg2) := by
  show after (ops1 ++ (ops2 ++ ops3)) W _ = _
  rw [after_append, after_append, stage3_arg2, stage2_arg2, stage1_arg2]
theorem kept3 : after ops W (Proc.devRef .tc main_arg3) = W (Proc.devRef .tc main_arg3) := by
  show after (ops1 ++ (ops2 ++ ops3)) W _ = _
  rw [after_append, after_append, stage3_arg3, stage2_arg3, stage1_arg3]
theorem kept4 : after ops W (Proc.devRef .tc main_arg4) = W (Proc.devRef .tc main_arg4) := by
  show after (ops1 ++ (ops2 ++ ops3)) W _ = _
  rw [after_append, after_append, stage3_arg4, stage2_arg4, stage1_arg4]
theorem kept5 : after ops W (Proc.devRef .tc main_arg5) = W (Proc.devRef .tc main_arg5) := by
  show after (ops1 ++ (ops2 ++ ops3)) W _ = _
  rw [after_append, after_append, stage3_arg5, stage2_arg5, stage1_arg5]
theorem kept6 : after ops W (Proc.devRef .tc main_arg6) = W (Proc.devRef .tc main_arg6) := by
  show after (ops1 ++ (ops2 ++ ops3)) W _ = _
  rw [after_append, after_append, stage3_arg6, stage2_arg6, stage1_arg6]
theorem kept7 : after ops W (Proc.devRef .tc main_arg7) = W (Proc.devRef .tc main_arg7) := by
  show after (ops1 ++ (ops2 ++ ops3)) W _ = _
  rw [after_append, after_append, stage3_arg7, stage2_arg7, stage1_arg7]

/-! ## The run -/

/-- From any memory with zero counters every weakly fair execution of the reference terminates with the result at
    `outOf` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55)
        = outOf (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v55).trans (value _),
      (h c main_arg0).trans (kept0 _),
      (h c main_arg1).trans (kept1 _),
      (h c main_arg2).trans (kept2 _),
      (h c main_arg3).trans (kept3 _),
      (h c main_arg4).trans (kept4 _),
      (h c main_arg5).trans (kept5 _),
      (h c main_arg6).trans (kept6 _),
      (h c main_arg7).trans (kept7 _)⟩)
    (run_seq scopedRefs_eq scopedSems_eq defs main (fun _ => ops) main_eq (fun _ => ops_sub) m ρ)

end Cert.ReferenceIdeal.Hand

end
-- ==== Proof.LibHostRows.lean ====
/-
  Host operations on rank-two arrays read at one index, on the extended reals.

  A reference written with array operations composes a few shapes of host operation.  Each lemma below reads one of
  them at an index with explicit coordinates: an elementwise quotient, exponential or logarithm as that of the entries; a plain matrix product as the sum over the shared axis; a vector
  repeated down the rows, or a column of per-row values repeated along the rows, as the vector's or the column's
  entry; a scalar splat as the scalar; a maximum or a sum along the second axis as the fold of max, or the sum,
  over that row, from the operation's initial value.
-/
import Idealize.ShloMosaic.PureOps.Ideal.Laws
import Idealize.ShloMosaic.Lib.ValueIdx
import Idealize.ShloMosaic.Lib.Pipeline.Value
import proofs.«165936_j38628935860964_2_alg».proof.Proof.LibRowOps

noncomputable section

namespace Cert.HostRows

open Idealize.ShloMosaic Idealize.ShloMosaic.ValueIdx Cert.RowOps

/-! ## A plain matrix product on the host -/

/-- A plain `[M, K] × [K, N]` host product at (r, c): the sum over the shared axis of the products. -/
theorem dotGeneral_plain_apply {M K N : Nat} {d : DotDims ⟨2, ![M, K]⟩ ⟨2, ![K, N]⟩ ⟨2, ![M, N]⟩} (hd : IsPlain d)
    {φ₁ φ₂ : FTy} (prec : Option ContractPrecision) (lhs : FVec Ideal ⟨2, ![M, K]⟩ φ₁) (rhs : FVec Ideal ⟨2, ![K, N]⟩ φ₂)
    (r : Fin M) (c : Fin N) :
    Host.dotGeneral (F := Ideal) d prec lhs rhs (ix2 r c) = ∑ k : Fin K, lhs (ix2 r k) * rhs (ix2 k c) := by
  simp only [Host.dotGeneral]
  rw [Ideal.dotGeneral_apply, ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

/-! ## Elementwise host operations -/

section Pointwise

variable {s : Shape} {φ : FTy}

/-- A host quotient at an index is the quotient of the entries. -/
theorem hostDivf_apply (x y : FVec Ideal s φ) (i : s.Idx) : Host.divf x y i = Ideal.div (x i) (y i) := rfl

/-- A host exponential at an index is the exponential of the entry. -/
theorem hostExp_apply (x : FVec Ideal s φ) (i : s.Idx) : Host.exp x i = Ideal.exp (x i) := rfl

/-- A host logarithm at an index is the logarithm of the entry. -/
theorem hostLog_apply (x : FVec Ideal s φ) (i : s.Idx) : Host.log x i = Ideal.log (x i) := rfl

end Pointwise

/-! ## Broadcasts -/

section Layout

variable {α : Type} {a b : Nat}

/-- A scalar splat reads the scalar at every index. -/
theorem splat_apply {t : Shape} (x : (⟨0, ![]⟩ : Shape).Idx → α) (h : (⟨0, ![]⟩ : Shape).BroadcastsInDim t ![])
    (j : t.Idx) : broadcastInDim t ![] h x j = x ix0 :=
  broadcastInDim_apply _ h x j ix0 (fun ax => ax.elim0)

/-- A length-b vector laid out as one row reads, at (u, c), the vector at c. -/
theorem asRow_apply (v : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h v (ix2 u c) = v (ix1 c) :=
  broadcastInDim_apply _ h v (ix2 u c) (ix1 c) (fun ax => by
    match ax with
    | ⟨0, _⟩ =>
      show c.val = if b = 1 then 0 else c.val
      split
      · have := c.isLt; omega
      · rfl)

/-- One row repeated down a rows reads, at (p, c), the row at c. -/
theorem downRows_apply (w : (⟨2, ![1, b]⟩ : Shape).Idx → α) (h : (⟨2, ![1, b]⟩ : Shape).BroadcastsInDim ⟨2, ![a, b]⟩ ![0, 1])
    (p : Fin a) (c : Fin b) : broadcastInDim ⟨2, ![a, b]⟩ ![0, 1] h w (ix2 p c) = w (ix2 (0 : Fin 1) c) :=
  broadcastInDim_apply _ h w (ix2 p c) (ix2 (0 : Fin 1) c) (fun ax => by
    match ax with
    | ⟨0, _⟩ => show 0 = if (1 : Nat) = 1 then 0 else p.val; rw [if_pos rfl]
    | ⟨1, _⟩ =>
      show c.val = if b = 1 then 0 else c.val
      split
      · have := c.isLt; omega
      · rfl)

/-- A length-a vector laid out as a column reads, at (p, u), the vector at p. -/
theorem asCol_apply (v : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h v (ix2 p u) = v (ix1 p) :=
  broadcastInDim_apply _ h v (ix2 p u) (ix1 p) (fun ax => by
    match ax with
    | ⟨0, _⟩ =>
      show p.val = if a = 1 then 0 else p.val
      split
      · have := p.isLt; omega
      · rfl)

/-- A column repeated along b columns reads, at (p, c), the column at p. -/
theorem alongRows_apply (w : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h w (ix2 p c) = w (ix2 p (0 : Fin 1)) :=
  broadcastInDim_apply _ h w (ix2 p c) (ix2 p (0 : Fin 1)) (fun ax => by
    match ax with
    | ⟨0, _⟩ =>
      show p.val = if a = 1 then 0 else p.val
      split
      · have := p.isLt; omega
      · rfl
    | ⟨1, _⟩ => show 0 = if (1 : Nat) = 1 then 0 else c.val; rw [if_pos rfl])

end Layout

/-! ## Reductions along the second axis -/

section Rows

variable {a b : Nat} {φ : FTy}

/-- A host maximum along the second axis at row r: the fold of max over that row from the initial value. -/
theorem reduceMax_apply (z : FVec Ideal ⟨2, ![a, b]⟩ φ) (init : (⟨0, ![]⟩ : Shape).Idx → Ideal φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce (FloatOps.maximumf (F := Ideal) (φ := φ)) z init h' hu (ix1 r)
      = (Finset.univ : Finset (Fin b)).fold max (init ix0) (fun k => z (ix2 r k)) := by
  rw [Host.reduce_eq_fold_single (FloatOps.maximumf (F := Ideal) (φ := φ)) z init h' h hu]
  rw [eq_ix0 (Shape.Idx.first hu)]
  exact congrArg (Finset.fold max (init ix0) · _) (funext fun k => congrArg z (lift_row h r k))

/-- A host sum along the second axis at row r: the initial value plus the sum of that row. -/
theorem reduceAdd_apply (z : FVec Ideal ⟨2, ![a, b]⟩ φ) (init : (⟨0, ![]⟩ : Shape).Idx → Ideal φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd (F := Ideal) z init h' hu (ix1 r) = init ix0 + ∑ k : Fin b, z (ix2 r k) := by
  simp only [Host.reduceAdd, Ideal.hostReduceAdd_def]
  rw [Ideal.hostReduceAdd_single h' h, eq_ix0 (Shape.Idx.first hu)]
  exact congrArg (init ix0 + ·) (Finset.sum_congr rfl fun k _ => congrArg z (lift_row h r k))

end Rows

end Cert.HostRows

end
-- ==== Proof.RefRead.lean ====
/-
  The reference's stages read one entry at a time on the extended reals.

  The mean over incoming edges at (r, k) is the summed entry divided by row r's clamped in-degree; a hidden entry
  and a logit are the row functions of the specification applied to row r of the mean, row r of the layer's input,
  the weights and the bias; the log-softmax entry is the specification's row function of row r of the logits.
-/
import proofs.«165936_j38628935860964_2_alg».proof.Proof.RefRun
import proofs.«165936_j38628935860964_2_alg».proof.Proof.LibHostRows
import proofs.«165936_j38628935860964_2_alg».proof.Proof.Spec

noncomputable section

namespace Cert.ReferenceIdeal.Rows

open Cert.ReferenceIdeal Cert.ReferenceIdeal.Hand Idealize.ShloMosaic Idealize.ShloMosaic.ValueIdx
open Cert.Sage Cert.RowOps Cert.HostRows

theorem plain128 : IsPlain dot_S100000x128_S128x128_S100000x128_1_0_0_1_n_n := ⟨rfl, rfl, rfl, rfl, rfl, rfl⟩
theorem plain40 : IsPlain dot_S100000x128_S128x40_S100000x40_1_0_0_1_n_n := ⟨rfl, rfl, rfl, rfl, rfl, rfl⟩

/-- The mean over incoming edges at (r, k): the summed entry divided by row r's in-degree clamped below by one. -/
theorem meanOf_apply (h : FVec Ideal S100000x128 .f32) (src dst : IVec S1600000 32) (r : Fin 100000) (k : Fin 128) :
    meanOf (F := Ideal) h src dst (ix2 r k)
      = Ideal.div (summedOf (F := Ideal) h src dst (ix2 r k))
          (max (degOf (F := Ideal) dst (ix1 r)) (Ideal.ofBits .f32 0x3F800000#32)) := by
  unfold meanOf clampOf
  rw [hostDivf_apply]
  refine congrArg (Ideal.div _) ?_
  refine (alongRows_apply _ _ r k).trans ((asCol_apply _ _ r 0).trans ?_)
  rw [maximumf_apply, splat_apply]
  rfl

/-- A hidden entry at (r, c). -/
theorem hiddenOf_apply (x : FVec Ideal S100000x128 .f32) (wl : FVec Ideal S128x128 .f32) (b : FVec Ideal S128 .f32)
    (wr : FVec Ideal S128x128 .f32) (src dst : IVec S1600000 32) (r : Fin 100000) (c : Fin 128) :
    hiddenOf (F := Ideal) x wl b wr src dst (ix2 r c)
      = hiddenAt (fun k => meanOf (F := Ideal) x src dst (ix2 r k)) (fun k => x (ix2 r k))
          (fun k c => wl (ix2 k c)) (fun k c => wr (ix2 k c)) (fun c => b (ix1 c)) c := by
  unfold hiddenOf hiddenAt
  rw [maximumf_apply, addf_apply, addf_apply]
  refine congrArg₂ max (congrArg₂ (· + ·) (congrArg₂ (· + ·) ?_ ?_) ?_) ?_
  · exact dotGeneral_plain_apply plain128 none _ _ r c
  · exact (downRows_apply _ _ r c).trans (asRow_apply _ _ 0 c)
  · exact dotGeneral_plain_apply plain128 none _ _ r c
  · exact (splat_apply _ _ _).trans rfl

/-- A logit at (r, c). -/
theorem logitsOf_apply (h : FVec Ideal S100000x128 .f32) (wl : FVec Ideal S128x40 .f32) (b : FVec Ideal S40 .f32)
    (wr : FVec Ideal S128x40 .f32) (src dst : IVec S1600000 32) (r : Fin 100000) (c : Fin 40) :
    logitsOf (F := Ideal) h wl b wr src dst (ix2 r c)
      = logitAt (fun k => meanOf (F := Ideal) h src dst (ix2 r k)) (fun k => h (ix2 r k))
          (fun k c => wl (ix2 k c)) (fun k c => wr (ix2 k c)) (fun c => b (ix1 c)) c := by
  unfold logitsOf logitAt
  rw [addf_apply, addf_apply]
  refine congrArg₂ (· + ·) (congrArg₂ (· + ·) ?_ ?_) ?_
  · exact dotGeneral_plain_apply plain40 none _ _ r c
  · exact (downRows_apply _ _ r c).trans (asRow_apply _ _ 0 c)
  · exact dotGeneral_plain_apply plain40 none _ _ r c

/-- The repeated row maximum at (r, c): the fold of max over row r (taking the maximum with minus infinity once
    more changes nothing). -/
theorem rowMaxOf_apply (z : FVec Ideal S100000x40 .f32) (r : Fin 100000) (c : Fin 40) :
    rowMaxOf (F := Ideal) z (ix2 r c) = rowMax (fun k => z (ix2 r k)) := by
  unfold rowMaxOf
  refine (alongRows_apply _ _ r c).trans ((asCol_apply _ _ r 0).trans ?_)
  rw [maximumf_apply, splat_apply, reduceMax_apply z _ _ (by decide) _ r]
  exact max_eq_right ((Finset.le_fold_max _).mpr (Or.inl le_rfl))

/-- The log-softmax entry at (r, c). -/
theorem lsmOf_apply (z : FVec Ideal S100000x40 .f32) (r : Fin 100000) (c : Fin 40) :
    lsmOf (F := Ideal) z (ix2 r c) = logSoftmaxAt (fun k => z (ix2 r k)) c := by
  unfold lsmOf logSoftmaxAt
  rw [subf_apply, subf_apply, rowMaxOf_apply]
  refine congrArg (z (ix2 r c) - rowMax (fun k => z (ix2 r k)) - ·) ?_
  refine (alongRows_apply _ _ r c).trans ?_
  rw [hostLog_apply]
  refine congrArg Ideal.log ?_
  refine (asCol_apply _ _ r 0).trans ((reduceAdd_apply _ _ _ (by decide) _ r).trans ?_)
  show Ideal.ofBits .f32 0x00000000#32 + _ = _
  rw [Ideal.ofBits_zero_f32, zero_add]
  refine Finset.sum_congr rfl fun k _ => ?_
  rw [hostExp_apply, subf_apply, rowMaxOf_apply]

end Cert.ReferenceIdeal.Rows

end
-- ==== Proof.Bridge.lean ====
/-
  The two programs compute one function.

  Both gather the source nodes' rows along the edges and add them up at the destination nodes, both count the
  in-degrees the same way, and the weights, biases and layer inputs enter both in the same places.  The kernel
  program multiplies a summed row by the reciprocal of the clamped degree where the reference divides by the clamped
  degree; a degree clamped below by one is never zero, so the two mean rows are equal entry by entry, hence the
  hidden layers are equal, hence the second layer's sums, mean rows, logits and log-softmax rows are equal.
-/
import proofs.«165936_j38628935860964_2_alg».proof.Proof.KValue
import proofs.«165936_j38628935860964_2_alg».proof.Proof.RefRead

noncomputable section

namespace Cert.Bridge

open Idealize.ShloMosaic Idealize.ShloMosaic.ValueIdx Cert.Sage

/-- The sum over incoming edges is the same function in both programs (the changes of float format are the
    identity on the extended reals). -/
theorem summed_agree (h : FVec Ideal Cert.KernelIdeal.S100000x128 .bf16) (src dst : IVec Cert.KernelIdeal.S1600000 32) :
    Cert.KernelIdeal.HostOps.summedOf (F := Ideal) h src dst = Cert.ReferenceIdeal.Hand.summedOf (F := Ideal) h src dst := rfl

/-- The in-degree count is the same function in both programs. -/
theorem deg_agree (dst : IVec Cert.KernelIdeal.S1600000 32) :
    Cert.KernelIdeal.HostOps.degOf (F := Ideal) dst = Cert.ReferenceIdeal.Hand.degOf (F := Ideal) dst := rfl

theorem src_agree (e : IVec Cert.KernelIdeal.S2x1600000 32) :
    Cert.KernelIdeal.HostOps.srcOf e = Cert.ReferenceIdeal.Hand.srcOf e := rfl
theorem dst_agree (e : IVec Cert.KernelIdeal.S2x1600000 32) :
    Cert.KernelIdeal.HostOps.dstOf e = Cert.ReferenceIdeal.Hand.dstOf e := rfl

/-- The kernel program's reciprocal-degree column at row r: one over the in-degree clamped below by one. -/
theorem inv_apply (dst : IVec Cert.KernelIdeal.S1600000 32) (r : Fin 100000) :
    Cert.KernelIdeal.HostOps.invOf (F := Ideal) dst (ix2 r (0 : Fin 1))
      = Ideal.div (Ideal.ofBits .f32 0x3F800000#32)
          (max (Cert.KernelIdeal.HostOps.degOf (F := Ideal) dst (ix1 r)) (Ideal.ofBits .f32 0x3F800000#32)) := by
  unfold Cert.KernelIdeal.HostOps.invOf
  refine (Cert.RowOps.column_apply _ _ r 0).trans ?_
  rw [Cert.HostRows.hostDivf_apply, maximumf_apply, Cert.HostRows.splat_apply]
  rfl

/-- The mean rows agree entry by entry: a summed entry times the reciprocal of the clamped degree is the summed entry
    divided by the clamped degree. -/
theorem mean_agree (h : FVec Ideal Cert.KernelIdeal.S100000x128 .bf16) (src dst : IVec Cert.KernelIdeal.S1600000 32)
    (r : Fin 100000) (k : Fin 128) :
    Cert.KernelIdeal.HostOps.summedOf (F := Ideal) h src dst (ix2 r k) * Cert.KernelIdeal.HostOps.invOf (F := Ideal) dst (ix2 r (0 : Fin 1))
      = Cert.ReferenceIdeal.Hand.meanOf (F := Ideal) h src dst (ix2 r k) := by
  rw [inv_apply, Cert.ReferenceIdeal.Rows.meanOf_apply, summed_agree, deg_agree]
  exact mean_eq _ _

/-- The hidden layers agree. -/
theorem hidden_agree (x : FVec Ideal Cert.KernelIdeal.S100000x128 .f32) (e : IVec Cert.KernelIdeal.S2x1600000 32)
    (w1l : FVec Ideal Cert.KernelIdeal.S128x128 .f32) (b1 : FVec Ideal Cert.KernelIdeal.S128 .f32)
    (w1r : FVec Ideal Cert.KernelIdeal.S128x128 .f32) :
    Cert.KernelIdeal.Whole.hiddenOf x e w1l b1 w1r
      = Cert.ReferenceIdeal.Hand.hiddenOf (F := Ideal) x w1l b1 w1r (Cert.ReferenceIdeal.Hand.srcOf e) (Cert.ReferenceIdeal.Hand.dstOf e) := by
  funext j
  obtain ⟨r, c, rfl⟩ : ∃ (r : Fin 100000) (c : Fin 128), j = ix2 r c := ⟨j 0, j 1, eq_ix2 j⟩
  unfold Cert.KernelIdeal.Whole.hiddenOf
  rw [Cert.KernelIdeal.Region0.hiddenArr_apply, Cert.ReferenceIdeal.Rows.hiddenOf_apply]
  exact congrArg (fun a => hiddenAt a (fun k => x (ix2 r k)) (fun k c => w1l (ix2 k c)) (fun k c => w1r (ix2 k c))
      (fun c => b1 (ix1 c)) c)
    (funext fun k => mean_agree (truncf .bf16 x (by decide)) (Cert.KernelIdeal.HostOps.srcOf e) (Cert.KernelIdeal.HostOps.dstOf e) r k)

/-- The results agree. -/
theorem out_agree (x : FVec Ideal Cert.KernelIdeal.S100000x128 .f32) (e : IVec Cert.KernelIdeal.S2x1600000 32)
    (w1l : FVec Ideal Cert.KernelIdeal.S128x128 .f32) (b1 : FVec Ideal Cert.KernelIdeal.S128 .f32)
    (w1r : FVec Ideal Cert.KernelIdeal.S128x128 .f32) (w2l : FVec Ideal Cert.KernelIdeal.S128x40 .f32)
    (b2 : FVec Ideal Cert.KernelIdeal.S40 .f32) (w2r : FVec Ideal Cert.KernelIdeal.S128x40 .f32) :
    Cert.KernelIdeal.Whole.outOf x e w1l b1 w1r w2l b2 w2r
      = Cert.ReferenceIdeal.Hand.outOf (F := Ideal) x e w1l b1 w1r w2l b2 w2r := by
  funext j
  obtain ⟨r, c, rfl⟩ : ∃ (r : Fin 100000) (c : Fin 40), j = ix2 r c := ⟨j 0, j 1, eq_ix2 j⟩
  unfold Cert.KernelIdeal.Whole.outOf Cert.ReferenceIdeal.Hand.outOf
  rw [Cert.KernelIdeal.Region1.outArr_apply, Cert.ReferenceIdeal.Rows.lsmOf_apply]
  refine congrArg (logSoftmaxAt · c) (funext fun q => ?_)
  rw [Cert.ReferenceIdeal.Rows.logitsOf_apply, ← hidden_agree]
  exact congrArg (fun a => logitAt a (fun k => Cert.KernelIdeal.Whole.hiddenOf x e w1l b1 w1r (ix2 r k))
      (fun k c => w2l (ix2 k c)) (fun k c => w2r (ix2 k c)) (fun c => b2 (ix1 c)) q)
    (funext fun k => mean_agree (Cert.KernelIdeal.Whole.hiddenOf x e w1l b1 w1r) (Cert.KernelIdeal.HostOps.srcOf e)
      (Cert.KernelIdeal.HostOps.dstOf e) r k)

end Cert.Bridge

end
-- ==== Proof.Claims.lean ====
/-
  The five claims.

  The three programs' frames are the generated frames (the reference's is its run with the result dropped); the
  idealization rewrote nothing, so it has nothing to preserve; and at the extended reals the idealized kernel
  program and the idealized reference end with equal results because they compute one function of arguments that
  agree.  No use is made of the inputs' finiteness: the one law joining the two sides, x · (1/d) = x / d, holds for
  every extended real x once d is not zero, and d is a degree clamped below by one.
-/
import proofs.«165936_j38628935860964_2_alg».proof.Defs
import proofs.«165936_j38628935860964_2_alg».proof.Proof.Gen.Kernel
import proofs.«165936_j38628935860964_2_alg».proof.Proof.Gen.Kernel.Frame
import proofs.«165936_j38628935860964_2_alg».proof.Proof.Gen.KernelIdeal
import proofs.«165936_j38628935860964_2_alg».proof.Proof.Gen.KernelIdeal.Frame
import proofs.«165936_j38628935860964_2_alg».proof.Proof.Gen.ReferenceIdeal
import proofs.«165936_j38628935860964_2_alg».proof.Proof.Gen.Pre_finite_inputs
import proofs.«165936_j38628935860964_2_alg».proof.Proof.Bridge

noncomputable section

namespace Cert.Proof.Claims

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

/-- Both idealized programs end with the two-layer function of arguments that agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Hand.run (F := Ideal) m' ρ')
  obtain ⟨e0, e1, e2, e3, e4, e5, e6, e7⟩ := hagree c
  rw [e0, e1, e2, e3, e4, e5, e6, e7]
  exact (Cert.Bridge.out_agree _ _ _ _ _ _ _ _).symm

end Cert.Proof.Claims

end
-- ==== Proof.lean ====
/-
  A two-layer mean-aggregation graph network computed by two row-tiled kernels among host gathers and scatters,
  against its array-language reference, on the extended reals.

  The kernel program forms each node's mean neighbour row as (sum over incoming edges) · (1 / max(degree, 1)) and
  the reference as (sum over incoming edges) / max(degree, 1); the clamped degree is at least one, so it is not
  zero, and both are the sum times the inverse of the clamped degree.  Everything else — the gathers and
  accumulating scatters, the two linear maps and biases of each layer, the rectifier, the row-wise log-softmax
  with its maximum folded from minus infinity — is the same operation on both sides once each is read one output
  row at a time, and changes of float format are the identity on the extended reals.  The modules: the row-level
  specification and the law (Spec), the kernel bodies read at an entry (BodyRows), each region as one array
  function (Region0, Region1), the host operations around the regions (KHost), the program's run with its result
  named (KRun, KValue), the reference's run in three stages and its stages read at an entry (RefRun, RefRead), the
  agreement of the two (Bridge) and the claims (Claims).
-/
import proofs.«165936_j38628935860964_2_alg».proof.Defs
import proofs.«165936_j38628935860964_2_alg».proof.Proof.Claims
import proofs.«165936_j38628935860964_2_alg».proof.Proof.Gen.Kernel
import proofs.«165936_j38628935860964_2_alg».proof.Proof.Gen.KernelIdeal
import proofs.«165936_j38628935860964_2_alg».proof.Proof.Gen.ReferenceIdeal
import proofs.«165936_j38628935860964_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
